-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S2x128 : Shape := ⟨2, ![2, 128]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S2 .f32) (main_v33 : IVec S_ 1) : IVec S_ 1 :=
  let main_v34 : FVec F S2 .f32 := Host.absf main_arg8
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S2x128 .f32) (main_arg8 : FVec F S2 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S2x128 .f32 := Host.absf main_arg7
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S3x128x128 .f32) (main_arg3 : FVec F S3x128 .f32) (main_arg4 : FVec F S3x128x128 .f32) (main_arg5 : FVec F S128x128 .f32) (main_arg6 : FVec F S128 .f32) (main_arg7 : FVec F S2x128 .f32) (main_arg8 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩
abbrev S128x2 : Shape := ⟨2, ![128, 2]⟩
abbrev S100000x2 : Shape := ⟨2, ![100000, 2]⟩
abbrev S5000x2 : Shape := ⟨2, ![5000, 2]⟩
abbrev S1x2 : Shape := ⟨2, ![1, 2]⟩

abbrev nBuf : Space → Nat
  | .hbm => 101
  | .vmem => 35
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S3x128x128, .f32⟩
  | .hbm, ⟨3, _⟩ => ⟨S3x128, .f32⟩
  | .hbm, ⟨4, _⟩ => ⟨S3x128x128, .f32⟩
  | .hbm, ⟨5, _⟩ => ⟨S128x128, .f32⟩
  | .hbm, ⟨6, _⟩ => ⟨S128, .f32⟩
  | .hbm, ⟨7, _⟩ => ⟨S2x128, .f32⟩
  | .hbm, ⟨8, _⟩ => ⟨S2, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128x128, .f32⟩
  | .hbm, ⟨42, _⟩ => ⟨S128x128, .f32⟩
  | .hbm, ⟨43, _⟩ => ⟨S128x128, .f32⟩
  | .hbm, ⟨44, _⟩ => ⟨S1x128x128, .f32⟩
  | .hbm, ⟨45, _⟩ => ⟨S128x128, .f32⟩
  | .hbm, ⟨46, _⟩ => ⟨S128x128, .f32⟩
  | .hbm, ⟨47, _⟩ => ⟨S1x128, .f32⟩
  | .hbm, ⟨48, _⟩ => ⟨S128, .f32⟩
  | .hbm, ⟨49, _⟩ => ⟨S100000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S1x128x128, .f32⟩
  | .hbm, ⟨66, _⟩ => ⟨S128x128, .f32⟩
  | .hbm, ⟨67, _⟩ => ⟨S128x128, .f32⟩
  | .hbm, ⟨68, _⟩ => ⟨S1x128x128, .f32⟩
  | .hbm, ⟨69, _⟩ => ⟨S128x128, .f32⟩
  | .hbm, ⟨70, _⟩ => ⟨S128x128, .f32⟩
  | .hbm, ⟨71, _⟩ => ⟨S1x128, .f32⟩
  | .hbm, ⟨72, _⟩ => ⟨S128, .f32⟩
  | .hbm, ⟨73, _⟩ => ⟨S100000x128, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x128, .f32⟩
  | .hbm, ⟨83, _⟩ => ⟨S_, .f32⟩
  | .hbm, ⟨84, _⟩ => ⟨S100000x128, .f32⟩
  | .hbm, ⟨85, _⟩ => ⟨S1600000x1, .i32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S1x128x128, .f32⟩
  | .hbm, ⟨90, _⟩ => ⟨S128x128, .f32⟩
  | .hbm, ⟨91, _⟩ => ⟨S128x128, .f32⟩
  | .hbm, ⟨92, _⟩ => ⟨S1x128x128, .f32⟩
  | .hbm, ⟨93, _⟩ => ⟨S128x128, .f32⟩
  | .hbm, ⟨94, _⟩ => ⟨S128x128, .f32⟩
  | .hbm, ⟨95, _⟩ => ⟨S1x128, .f32⟩
  | .hbm, ⟨96, _⟩ => ⟨S128, .f32⟩
  | .hbm, ⟨97, _⟩ => ⟨S100000x128, .f32⟩
  | .hbm, ⟨98, _⟩ => ⟨S128x128, .f32⟩
  | .hbm, ⟨99, _⟩ => ⟨S128x2, .f32⟩
  | .hbm, ⟨100, _⟩ => ⟨S100000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S128x128, .f32⟩
  | .local _ .vmem, ⟨30, _⟩ => ⟨S128, .f32⟩
  | .local _ .vmem, ⟨31, _⟩ => ⟨S128x2, .f32⟩
  | .local _ .vmem, ⟨32, _⟩ => ⟨S2, .f32⟩
  | .local _ .vmem, ⟨33, _⟩ => ⟨S5000x2, .f32⟩
  | .local _ .vmem, ⟨34, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_5 : Ref sig .tc := ⟨.hbm, 50, rfl⟩
abbrev main_v34 : Ref sig .tc := ⟨.hbm, 51, rfl⟩
abbrev main_v35 : Ref sig .tc := ⟨.hbm, 52, rfl⟩
abbrev main_c_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_8 : Ref sig .tc := ⟨.hbm, 74, rfl⟩
abbrev main_v55 : Ref sig .tc := ⟨.hbm, 75, rfl⟩
abbrev main_v56 : Ref sig .tc := ⟨.hbm, 76, rfl⟩
abbrev main_c_9 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_10 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x2 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  transposes_S2x128_S128x2_1_0 : S2x128.Transposes [1, 0] S128x2
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x2.size a ≤ S128x2.size a
  hwx3_3 : ∀ i : grid3.Coords, EltTy.bits .f32 = 32 ∨ (Rect.block (s := S128x2) S128x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S2.size a ≤ S2.size a
  hwx3_4 : ∀ i : grid3.Coords, EltTy.bits .f32 = 32 ∨ (Rect.block (s := S2) S2.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x2.size a ≤ S100000x2.size a
  hwx3_5 : ∀ i : grid3.Coords, EltTy.bits .f32 = 32 ∨ (Rect.block (s := S100000x2) S5000x2.size (cc3_transform_5 i) (hinb3_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v66) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v69) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v74) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v72) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v75) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v75) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v77) S128x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg8) S2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v78) S5000x2.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S1x128 : Shape := ⟨2, ![1, 128]⟩
abbrev S128x2 : Shape := ⟨2, ![128, 2]⟩
abbrev S100000x2 : Shape := ⟨2, ![100000, 2]⟩
abbrev S1x2 : Shape := ⟨2, ![1, 2]⟩

abbrev nBuf : Space → Nat
  | .hbm => 165
  | .vmem => 0
  | .smem => 0
  | _ => 0

abbrev hbmTy0_0 (i : Nat) : BufTy := match i % 128 with
  | 0 => ⟨S100000x128, .f32⟩
  | 1 => ⟨S2x1600000, .i32⟩
  | 2 => ⟨S3x128x128, .f32⟩
  | 3 => ⟨S3x128, .f32⟩
  | 4 => ⟨S3x128x128, .f32⟩
  | 5 => ⟨S128x128, .f32⟩
  | 6 => ⟨S128, .f32⟩
  | 7 => ⟨S2x128, .f32⟩
  | 8 => ⟨S2, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S_, .f32⟩
  | 23 => ⟨S100000, .f32⟩
  | 24 => ⟨S100000, .f32⟩
  | 25 => ⟨S100000x1, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x128, .f32⟩
  | 35 => ⟨S_, .f32⟩
  | 36 => ⟨S100000x128, .f32⟩
  | 37 => ⟨S1600000x1, .i32⟩
  | 38 => ⟨S100000x128, .f32⟩
  | 39 => ⟨S100000x128, .f32⟩
  | 40 => ⟨S100000x128, .f32⟩
  | 41 => ⟨S1x128x128, .f32⟩
  | 42 => ⟨S128x128, .f32⟩
  | 43 => ⟨S128x128, .f32⟩
  | 44 => ⟨S100000x128, .f32⟩
  | 45 => ⟨S1x128, .f32⟩
  | 46 => ⟨S128, .f32⟩
  | 47 => ⟨S1x128, .f32⟩
  | 48 => ⟨S100000x128, .f32⟩
  | 49 => ⟨S100000x128, .f32⟩
  | 50 => ⟨S1x128x128, .f32⟩
  | 51 => ⟨S128x128, .f32⟩
  | 52 => ⟨S128x128, .f32⟩
  | 53 => ⟨S100000x128, .f32⟩
  | 54 => ⟨S100000x128, .f32⟩
  | 55 => ⟨S100000x128, .f32⟩
  | 56 => ⟨S_, .f32⟩
  | 57 => ⟨S100000, .f32⟩
  | 58 => ⟨S100000x1, .f32⟩
  | 59 => ⟨S100000x1, .f32⟩
  | 60 => ⟨S_, .f32⟩
  | 61 => ⟨S100000x1, .f32⟩
  | 62 => ⟨S100000x1, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x128, .f32⟩
  | 77 => ⟨S_, .f32⟩
  | 78 => ⟨S100000x128, .f32⟩
  | 79 => ⟨S1600000x1, .i32⟩
  | 80 => ⟨S100000x128, .f32⟩
  | 81 => ⟨S100000x128, .f32⟩
  | 82 => ⟨S100000x128, .f32⟩
  | 83 => ⟨S1x128x128, .f32⟩
  | 84 => ⟨S128x128, .f32⟩
  | 85 => ⟨S128x128, .f32⟩
  | 86 => ⟨S100000x128, .f32⟩
  | 87 => ⟨S1x128, .f32⟩
  | 88 => ⟨S128, .f32⟩
  | 89 => ⟨S1x128, .f32⟩
  | 90 => ⟨S100000x128, .f32⟩
  | 91 => ⟨S100000x128, .f32⟩
  | 92 => ⟨S1x128x128, .f32⟩
  | 93 => ⟨S128x128, .f32⟩
  | 94 => ⟨S128x128, .f32⟩
  | 95 => ⟨S100000x128, .f32⟩
  | 96 => ⟨S100000x128, .f32⟩
  | 97 => ⟨S100000x128, .f32⟩
  | 98 => ⟨S_, .f32⟩
  | 99 => ⟨S100000, .f32⟩
  | 100 => ⟨S100000x1, .f32⟩
  | 101 => ⟨S100000x1, .f32⟩
  | 102 => ⟨S_, .f32⟩
  | 103 => ⟨S100000x1, .f32⟩
  | 104 => ⟨S100000x1, .f32⟩
  | 105 => ⟨S100000x128, .f32⟩
  | 106 => ⟨S100000x128, .f32⟩
  | 107 => ⟨S_, .f32⟩
  | 108 => ⟨S100000x128, .f32⟩
  | 109 => ⟨S100000x128, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x128, .f32⟩
  | 119 => ⟨S_, .f32⟩
  | 120 => ⟨S100000x128, .f32⟩
  | 121 => ⟨S1600000x1, .i32⟩
  | 122 => ⟨S100000x128, .f32⟩
  | 123 => ⟨S100000x128, .f32⟩
  | 124 => ⟨S100000x128, .f32⟩
  | 125 => ⟨S1x128x128, .f32⟩
  | 126 => ⟨S128x128, .f32⟩
  | 127 => ⟨S128x128, .f32⟩
  | _ => ⟨S100000x128, .f32⟩

abbrev hbmTy0_1 (i : Nat) : BufTy := match i % 128 with
  | 0 => ⟨S100000x128, .f32⟩
  | 1 => ⟨S1x128, .f32⟩
  | 2 => ⟨S128, .f32⟩
  | 3 => ⟨S1x128, .f32⟩
  | 4 => ⟨S100000x128, .f32⟩
  | 5 => ⟨S100000x128, .f32⟩
  | 6 => ⟨S1x128x128, .f32⟩
  | 7 => ⟨S128x128, .f32⟩
  | 8 => ⟨S128x128, .f32⟩
  | 9 => ⟨S100000x128, .f32⟩
  | 10 => ⟨S100000x128, .f32⟩
  | 11 => ⟨S100000x128, .f32⟩
  | 12 => ⟨S_, .f32⟩
  | 13 => ⟨S100000, .f32⟩
  | 14 => ⟨S100000x1, .f32⟩
  | 15 => ⟨S100000x1, .f32⟩
  | 16 => ⟨S_, .f32⟩
  | 17 => ⟨S100000x1, .f32⟩
  | 18 => ⟨S100000x1, .f32⟩
  | 19 => ⟨S100000x128, .f32⟩
  | 20 => ⟨S100000x128, .f32⟩
  | 21 => ⟨S_, .f32⟩
  | 22 => ⟨S100000x128, .f32⟩
  | 23 => ⟨S100000x128, .f32⟩
  | 24 => ⟨S128x128, .f32⟩
  | 25 => ⟨S100000x128, .f32⟩
  | 26 => ⟨S1x128, .f32⟩
  | 27 => ⟨S100000x128, .f32⟩
  | 28 => ⟨S100000x128, .f32⟩
  | 29 => ⟨S_, .f32⟩
  | 30 => ⟨S100000x128, .f32⟩
  | 31 => ⟨S100000x128, .f32⟩
  | 32 => ⟨S128x2, .f32⟩
  | 33 => ⟨S100000x2, .f32⟩
  | 34 => ⟨S1x2, .f32⟩
  | 35 => ⟨S100000x2, .f32⟩
  | 36 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call0_v0 : Ref sig .tc := ⟨.hbm, 55, rfl⟩
abbrev main_call0_cst : Ref sig .tc := ⟨.hbm, 56, rfl⟩
abbrev main_call0_v1 : Ref sig .tc := ⟨.hbm, 57, rfl⟩
abbrev main_call0_v2 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call1_cst : Ref sig .tc := ⟨.hbm, 65, rfl⟩
abbrev main_call1_v0 : Ref sig .tc := ⟨.hbm, 66, rfl⟩
abbrev main_v44 : Ref sig .tc := ⟨.hbm, 67, rfl⟩
abbrev main_c_6 : Ref sig .tc := ⟨.hbm, 68, rfl⟩
abbrev main_v45 : Ref sig .tc := ⟨.hbm, 69, rfl⟩
abbrev main_v46 : Ref sig .tc := ⟨.hbm, 70, rfl⟩
abbrev main_c_7 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_8 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_call2_v0 : Ref sig .tc := ⟨.hbm, 97, rfl⟩
abbrev main_call2_cst : Ref sig .tc := ⟨.hbm, 98, rfl⟩
abbrev main_call2_v1 : Ref sig .tc := ⟨.hbm, 99, rfl⟩
abbrev main_call2_v2 : Ref sig .tc := ⟨.hbm, 100, rfl⟩
abbrev main_v71 : Ref sig .tc := ⟨.hbm, 101, rfl⟩
abbrev main_cst_9 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_call3_cst : Ref sig .tc := ⟨.hbm, 107, rfl⟩
abbrev main_call3_v0 : Ref sig .tc := ⟨.hbm, 108, rfl⟩
abbrev main_v76 : Ref sig .tc := ⟨.hbm, 109, rfl⟩
abbrev main_c_10 : Ref sig .tc := ⟨.hbm, 110, rfl⟩
abbrev main_v77 : Ref sig .tc := ⟨.hbm, 111, rfl⟩
abbrev main_v78 : Ref sig .tc := ⟨.hbm, 112, rfl⟩
abbrev main_c_11 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_12 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_call4_v0 : Ref sig .tc := ⟨.hbm, 139, rfl⟩
abbrev main_call4_cst : Ref sig .tc := ⟨.hbm, 140, rfl⟩
abbrev main_call4_v1 : Ref sig .tc := ⟨.hbm, 141, rfl⟩
abbrev main_call4_v2 : Ref sig .tc := ⟨.hbm, 142, rfl⟩
abbrev main_v103 : Ref sig .tc := ⟨.hbm, 143, rfl⟩
abbrev main_cst_13 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_call5_cst : Ref sig .tc := ⟨.hbm, 149, rfl⟩
abbrev main_call5_v0 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_call6_cst : Ref sig .tc := ⟨.hbm, 157, rfl⟩
abbrev main_call6_v0 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  transposes_S2x128_S128x2_1_0 : S2x128.Transposes [1, 0] S128x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x2_S100000x2_1_0_0_1_n_n_wf : DotDims.WF S100000x128 S128x2 S100000x2 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.KernelRun.lean ====
/-
  The kernel program's run, with its result named.

  @main is eight segments: four stretches of host operations, each followed by a kernel launch. Folding the buffer
  contents through the segments from the launch memory gives the contents at the return (`Gen.W8`); every weakly fair
  execution terminates without a fault in a state whose unscoped buffers hold exactly those contents. So the result
  buffer ends at the fold's value there, and each argument array as launched.
-/
import proofs.«181464_j3624952398755_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the fold's final
    contents and every argument array as launched. -/
theorem run_result : θ_run defs (onTc (τ := τ) (main (F := F))) ⟨m, fun _ => 0, ρ⟩ (fun r => ∀ c : Dev nD,
      r.2.mem ((c.tc : Thread nD τ).loc main_v78) = W8 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v78 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.Run

end
-- ==== Proof.SageSpec.lean ====
/-
  The two layers of the network, entry by entry, over the extended reals.

  A GraphSAGE layer takes the aggregated neighbour features `mean` and the node features `x` (both n × 128), two
  128 × 128 weight matrices already transposed to (input, output) order, and a bias. Row r of the pre-activation is
    s r j = (Σ_q mean r q · wl q j + b j) + Σ_q x r q · wr q j,
  and the layer's output divides the row by its Euclidean length, clamped below by a small positive float, then
  clips negative entries to zero:
    out r j = max (s r j / max (√(Σ_q (s r q)²), ε), 0).
  Every entry of row r depends only on row r of `mean` and of `x`: this is what lets a kernel work on a block of
  rows at a time. The head is a two-layer perceptron on each row: max (x · w1 + b1, 0) · w2 + b2.
-/
import Idealize.ShloMosaic.PureOps.Ideal.Laws
import Idealize.ShloMosaic.Lib.ValueIdx

noncomputable section

namespace Cert.Spec

open Idealize.ShloMosaic Idealize.ShloMosaic.ValueIdx

/-- An a × b array of extended reals. -/
abbrev Mat (a b : ℕ) : Type := (⟨2, ![a, b]⟩ : Shape).Idx → EReal
/-- A length-a vector of extended reals. -/
abbrev Vc (a : ℕ) : Type := (⟨1, ![a]⟩ : Shape).Idx → EReal

/-- The float word the row length is clamped below by (the f32 nearest 1e-12), as an extended real. -/
abbrev epsW : EReal := Ideal.ofBits .f32 0x2B8CBCCC#32
/-- The float word zero, as an extended real. -/
abbrev zeroW : EReal := Ideal.ofBits .f32 0x00000000#32

/-- Row r of `a · w + b` at column j. -/
def affine {n k o : ℕ} (a : Mat n k) (w : Mat k o) (b : Vc o) (r : Fin n) (j : Fin o) : EReal :=
  (∑ q : Fin k, a (ix2 r q) * w (ix2 q j)) + b (ix1 j)

/-- Row r of the layer's pre-activation `(mean · wl + b) + x · wr` at column j. -/
def preAt {n : ℕ} (mean x : Mat n 128) (wl wr : Mat 128 128) (b : Vc 128) (r : Fin n) (j : Fin 128) : EReal :=
  affine mean wl b r j + ∑ q : Fin 128, x (ix2 r q) * wr (ix2 q j)

/-- A row divided by its clamped Euclidean length, negative entries clipped to zero. -/
def normReluAt (s : Fin 128 → EReal) (j : Fin 128) : EReal :=
  max (Ideal.div (s j) (max (Ideal.sqrt (∑ q : Fin 128, s q * s q)) epsW)) zeroW

/-- The layer's output at row r, column j. -/
def sageAt {n : ℕ} (mean x : Mat n 128) (wl wr : Mat 128 128) (b : Vc 128) (r : Fin n) (j : Fin 128) : EReal :=
  normReluAt (preAt mean x wl wr b r) j

/-- The head's output at row r, column j. -/
def mlpAt {n : ℕ} (x : Mat n 128) (w1 : Mat 128 128) (b1 : Vc 128) (w2 : Mat 128 2) (b2 : Vc 2) (r : Fin n) (j : Fin 2) : EReal :=
  (∑ q : Fin 128, max (affine x w1 b1 r q) zeroW * w2 (ix2 q j)) + b2 (ix1 j)

/-- The pre-activation of a row depends only on that row of the two feature arrays. -/
theorem preAt_congr {n n' : ℕ} (mean x : Mat n 128) (mean' x' : Mat n' 128) (wl wr : Mat 128 128) (b : Vc 128) (r : Fin n) (r' : Fin n')
    (hm : ∀ q : Fin 128, mean (ix2 r q) = mean' (ix2 r' q)) (hx : ∀ q : Fin 128, x (ix2 r q) = x' (ix2 r' q)) :
    preAt mean x wl wr b r = preAt mean' x' wl wr b r' := by
  funext j
  unfold preAt affine
  simp only [hm, hx]

/-- So does the layer's output. -/
theorem sageAt_congr {n n' : ℕ} (mean x : Mat n 128) (mean' x' : Mat n' 128) (wl wr : Mat 128 128) (b : Vc 128) (r : Fin n) (r' : Fin n')
    (hm : ∀ q : Fin 128, mean (ix2 r q) = mean' (ix2 r' q)) (hx : ∀ q : Fin 128, x (ix2 r q) = x' (ix2 r' q)) (j : Fin 128) :
    sageAt mean x wl wr b r j = sageAt mean' x' wl wr b r' j := by
  unfold sageAt
  rw [preAt_congr mean x mean' x' wl wr b r r' hm hx]

/-- The head's output of a row depends only on that row of the features. -/
theorem mlpAt_congr {n n' : ℕ} (x : Mat n 128) (x' : Mat n' 128) (w1 : Mat 128 128) (b1 : Vc 128) (w2 : Mat 128 2) (b2 : Vc 2)
    (r : Fin n) (r' : Fin n') (hx : ∀ q : Fin 128, x (ix2 r q) = x' (ix2 r' q)) (j : Fin 2) :
    mlpAt x w1 b1 w2 b2 r j = mlpAt x' w1 b1 w2 b2 r' j := by
  unfold mlpAt affine
  simp only [hx]

/-- The layer's output as a whole n × 128 array. -/
def sageArr {n : ℕ} (mean x : Mat n 128) (wl wr : Mat 128 128) (b : Vc 128) : Mat n 128 :=
  fun i => sageAt mean x wl wr b ⟨(i 0).val, idx2_lt0 i⟩ ⟨(i 1).val, idx2_lt1 i⟩

/-- The head's output as a whole n × 2 array. -/
def mlpArr {n : ℕ} (x : Mat n 128) (w1 : Mat 128 128) (b1 : Vc 128) (w2 : Mat 128 2) (b2 : Vc 2) : Mat n 2 :=
  fun i => mlpAt x w1 b1 w2 b2 ⟨(i 0).val, idx2_lt0 i⟩ ⟨(i 1).val, idx2_lt1 i⟩

theorem sageArr_ix2 {n : ℕ} (mean x : Mat n 128) (wl wr : Mat 128 128) (b : Vc 128) (r : Fin n) (j : Fin 128) :
    sageArr mean x wl wr b (ix2 r j) = sageAt mean x wl wr b r j := rfl

theorem mlpArr_ix2 {n : ℕ} (x : Mat n 128) (w1 : Mat 128 128) (b1 : Vc 128) (w2 : Mat 128 2) (b2 : Vc 2) (r : Fin n) (j : Fin 2) :
    mlpArr x w1 b1 w2 b2 (ix2 r j) = mlpAt x w1 b1 w2 b2 r j := rfl

/-- An array that agrees with the layer's formula at every (r, j) is the layer's output. -/
theorem eq_sageArr {n : ℕ} (y mean x : Mat n 128) (wl wr : Mat 128 128) (b : Vc 128)
    (h : ∀ (r : Fin n) (j : Fin 128), y (ix2 r j) = sageAt mean x wl wr b r j) : y = sageArr mean x wl wr b := by
  funext i
  obtain ⟨r, j, rfl⟩ : ∃ (r : Fin n) (j : Fin 128), i = ix2 r j := ⟨i 0, i 1, eq_ix2 i⟩
  exact h r j

/-- An array that agrees with the head's formula at every (r, j) is the head's output. -/
theorem eq_mlpArr {n : ℕ} (y : Mat n 2) (x : Mat n 128) (w1 : Mat 128 128) (b1 : Vc 128) (w2 : Mat 128 2) (b2 : Vc 2)
    (h : ∀ (r : Fin n) (j : Fin 2), y (ix2 r j) = mlpAt x w1 b1 w2 b2 r j) : y = mlpArr x w1 b1 w2 b2 := by
  funext i
  obtain ⟨r, j, rfl⟩ : ∃ (r : Fin n) (j : Fin 2), i = ix2 r j := ⟨i 0, i 1, eq_ix2 i⟩
  exact h r j

end Cert.Spec

end
-- ==== Proof.LibColumnCast.lean ====
/-
  A vector of length `a` viewed as a column `[a, 1]`, read at an index.

  Both shapes list their entries in the same row-major order, and the column's entry (i, 0) is the
  i-th of them, so the column at (i, 0) is the vector at i.
-/
import Idealize.ShloMosaic.Lib.Pipeline.Value
import Idealize.ShloMosaic.Lib.ValueIdx

namespace Idealize.ShloMosaic.ValueIdx

variable {α : Type}

/-- A length-`a` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.LibLaneSum.lean ====
/-
  The sum along the rows of an `a × n` block, viewed as a column.

  A float lane sum over the second axis of an `a × n` block, started from zero, gives one number per row; recast as
  an `a × 1` column, its entry `(r, 0)` is the plain finite sum of the block's row `r` over its `n` columns.
-/
import Idealize.ShloMosaic.PureOps.Ideal.Laws
import Idealize.ShloMosaic.Lib.Pipeline.Value
import Idealize.ShloMosaic.Lib.ValueIdx
import proofs.«181464_j3624952398755_1_alg».proof.Proof.LibColumnCast

namespace Idealize.ShloMosaic.ValueIdx

/-- A lane sum of an `a × n` block from zero, recast as a column, at row `r`: the sum of the block's row `r`. -/
theorem laneSum_column_apply {a n : ℕ} (src : FVec Ideal ⟨2, ![a, n]⟩ .f32)
    (hacc : (0x00000000#32 : BitVec 32) = 0x00000000#32)
    (h : (⟨2, ![a, n]⟩ : Shape).Reduces [1] ⟨1, ![a]⟩) (hc : (⟨1, ![a]⟩ : Shape).ShapeCasts ⟨2, ![a, 1]⟩)
    (r : Fin a) (u : Fin 1) :
    shapeCast ⟨2, ![a, 1]⟩ (multiReduction .add [1] ⟨1, ![a]⟩ src 0x00000000#32 h (.inl rfl) hacc) hc (ix2 r u)
      = ∑ c : Fin n, src (ix2 r c) := by
  refine (shapeCast_a_a1_apply _ hc r u).trans ?_
  refine (Ideal.multiReduction_add_single src 0x00000000#32 h (.inl rfl) hacc (ix1 r)).trans ?_
  refine Finset.sum_congr rfl fun k _ => ?_
  exact congrArg src (funext fun b => Fin.ext (by match b with | ⟨0, _⟩ => rfl | ⟨1, _⟩ => rfl))

end Idealize.ShloMosaic.ValueIdx
-- ==== Proof.LibRowLayout.lean ====
/-
  A column `[a, 1]` broadcast along its unit axis to `[a, b]`, read at an index.

  Every entry of row i of the result is the column's entry (i, 0).
-/
import Idealize.ShloMosaic.Lib.Pipeline.Value
import Idealize.ShloMosaic.Lib.ValueIdx

namespace Idealize.ShloMosaic.ValueIdx

variable {α : Type}

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.KernelBlocks.lean ====
/-
  What each kernel body computes on one block of 5000 rows, entry by entry.

  A body reads a 5000 × 128 block of the aggregated features and of the node features, the two weight matrices and
  the bias, and stores one 5000 × 128 block. Read over the extended reals the narrowing of the operands to a
  shorter float format is the identity, each matrix product into a zero accumulator is a plain sum over the 128
  shared positions, the lane sum of the squared row is a plain sum, and every remaining step acts entry by entry.
  So the stored block at (p, j) is the layer's formula on row p of the two feature blocks; likewise for the head.
-/
import proofs.«181464_j3624952398755_1_alg».proof.Proof.Gen.KernelIdeal.Skeleton
import proofs.«181464_j3624952398755_1_alg».proof.Proof.SageSpec
import proofs.«181464_j3624952398755_1_alg».proof.Proof.LibLaneSum
import proofs.«181464_j3624952398755_1_alg».proof.Proof.LibRowLayout
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Blocks

open Cert.KernelIdeal Cert.KernelIdeal.Gen Idealize.ShloMosaic Idealize.ShloMosaic.ValueIdx Cert.Spec

/-! ## The two matrix products of a block -/

/-- Output row of the left operand's index. -/
theorem lhs0_sq (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the summation index. -/
theorem lhs1_sq (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the summation index. -/
theorem rhs0_sq (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
/-- Output column of the right operand's index. -/
theorem rhs1_sq (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The contraction of an 5000 × 128 by a 128 × 128 array at (p, j): the sum over q of left (p, q) times right (q, j). -/
theorem contr_sq (l : S5000x128.Idx → EReal) (r : S128x128.Idx → EReal) (p : Fin 5000) (j : Fin 128) :
    (∑ k : dot_S5000x128_S128x128_S5000x128_1_0_0_1_n_n.contr.Idx, l (dot_S5000x128_S128x128_S5000x128_1_0_0_1_n_n.lhsIdx (ix2 p j) k) * r (dot_S5000x128_S128x128_S5000x128_1_0_0_1_n_n.rhsIdx (ix2 p j) k))
      = ∑ q : Fin 128, l (ix2 p q) * r (ix2 q j) := by
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p j) ((ValueIdx.contrEquiv1 dot_S5000x128_S128x128_S5000x128_1_0_0_1_n_n 128 rfl rfl).symm k) = ix2 p k := funext fun a => Fin.ext (by
    match a with
    | ⟨0, _⟩ => exact lhs0_sq _ _
    | ⟨1, _⟩ => exact (lhs1_sq _ _).trans hk)
  have er : dot_S5000x128_S128x128_S5000x128_1_0_0_1_n_n.rhsIdx (ix2 p j) ((ValueIdx.contrEquiv1 dot_S5000x128_S128x128_S5000x128_1_0_0_1_n_n 128 rfl rfl).symm k) = ix2 k j := funext fun a => Fin.ext (by
    match a with
    | ⟨0, _⟩ => exact (rhs0_sq _ _).trans hk
    | ⟨1, _⟩ => exact rhs1_sq _ _)
  rw [el, er]

/-- Output row of the left operand's index. -/
theorem lhs0_out (i : S5000x2.Idx) (q : dot_S5000x128_S128x2_S5000x2_1_0_0_1_n_n.contr.Idx) : (dot_S5000x128_S128x2_S5000x2_1_0_0_1_n_n.lhsIdx i q 0).val = (i 0).val := by
  unfold DotDims.lhsIdx
  rw [dif_neg (show ¬(0 : Fin S5000x128.rank) ∈ dot_S5000x128_S128x2_S5000x2_1_0_0_1_n_n.lhsBatch by decide), dif_pos (show (0 : Fin S5000x128.rank) ∈ dot_S5000x128_S128x2_S5000x2_1_0_0_1_n_n.lhsNonContracting by decide)]
  rfl
/-- The left operand's column is the summation index. -/
theorem lhs1_out (i : S5000x2.Idx) (q : dot_S5000x128_S128x2_S5000x2_1_0_0_1_n_n.contr.Idx) : (dot_S5000x128_S128x2_S5000x2_1_0_0_1_n_n.lhsIdx i q 1).val = (q ⟨0, by decide⟩).val :=
  dot_S5000x128_S128x2_S5000x2_1_0_0_1_n_n.lhsIdx_val_of_single rfl i q
/-- The right operand's row is the summation index. -/
theorem rhs0_out (i : S5000x2.Idx) (q : dot_S5000x128_S128x2_S5000x2_1_0_0_1_n_n.contr.Idx) : (dot_S5000x128_S128x2_S5000x2_1_0_0_1_n_n.rhsIdx i q 0).val = (q ⟨0, by decide⟩).val :=
  dot_S5000x128_S128x2_S5000x2_1_0_0_1_n_n.rhsIdx_val_of_single rfl i q
/-- Output column of the right operand's index. -/
theorem rhs1_out (i : S5000x2.Idx) (q : dot_S5000x128_S128x2_S5000x2_1_0_0_1_n_n.contr.Idx) : (dot_S5000x128_S128x2_S5000x2_1_0_0_1_n_n.rhsIdx i q 1).val = (i 1).val := by
  unfold DotDims.rhsIdx
  rw [dif_neg (show ¬(1 : Fin S128x2.rank) ∈ dot_S5000x128_S128x2_S5000x2_1_0_0_1_n_n.rhsBatch by decide), dif_pos (show (1 : Fin S128x2.rank) ∈ dot_S5000x128_S128x2_S5000x2_1_0_0_1_n_n.rhsNonContracting by decide)]
  rfl

/-- The contraction of an 5000 × 128 by a 128 × 2 array at (p, j): the sum over q of left (p, q) times right (q, j). -/
theorem contr_out (l : S5000x128.Idx → EReal) (r : S128x2.Idx → EReal) (p : Fin 5000) (j : Fin 2) :
    (∑ k : dot_S5000x128_S128x2_S5000x2_1_0_0_1_n_n.contr.Idx, l (dot_S5000x128_S128x2_S5000x2_1_0_0_1_n_n.lhsIdx (ix2 p j) k) * r (dot_S5000x128_S128x2_S5000x2_1_0_0_1_n_n.rhsIdx (ix2 p j) k))
      = ∑ q : Fin 128, l (ix2 p q) * r (ix2 q j) := by
  rw [← Equiv.sum_comp (ValueIdx.contrEquiv1 dot_S5000x128_S128x2_S5000x2_1_0_0_1_n_n 128 rfl rfl).symm]
  refine Finset.sum_congr rfl fun k _ => ?_
  have hk := ValueIdx.contrEquiv1_symm_val dot_S5000x128_S128x2_S5000x2_1_0_0_1_n_n 128 rfl rfl k
  have el : dot_S5000x128_S128x2_S5000x2_1_0_0_1_n_n.lhsIdx (ix2 p j) ((ValueIdx.contrEquiv1 dot_S5000x128_S128x2_S5000x2_1_0_0_1_n_n 128 rfl rfl).symm k) = ix2 p k := funext fun a => Fin.ext (by
    match a with
    | ⟨0, _⟩ => exact lhs0_out _ _
    | ⟨1, _⟩ => exact (lhs1_out _ _).trans hk)
  have er : dot_S5000x128_S128x2_S5000x2_1_0_0_1_n_n.rhsIdx (ix2 p j) ((ValueIdx.contrEquiv1 dot_S5000x128_S128x2_S5000x2_1_0_0_1_n_n 128 rfl rfl).symm k) = ix2 k j := funext fun a => Fin.ext (by
    match a with
    | ⟨0, _⟩ => exact (rhs0_out _ _).trans hk
    | ⟨1, _⟩ => exact rhs1_out _ _)
  rw [el, er]

/-- A block times a 128 × 128 matrix into a zero accumulator, at (p, j). -/
theorem matmul_sq_apply (l : FVec Ideal S5000x128 .bf16) (r : FVec Ideal S128x128 .bf16) (p : Fin 5000) (j : Fin 128) :
    matmul dot_S5000x128_S128x128_S5000x128_1_0_0_1_n_n none l r (constant (F := Ideal) S5000x128 .f32 0x00000000#32) (ix2 p j)
      = ∑ q : Fin 128, l (ix2 p q) * r (ix2 q j) :=
  (Ideal.matmul_constant_zero_apply dot_S5000x128_S128x128_S5000x128_1_0_0_1_n_n none l r (ix2 p j)).trans (contr_sq l r p j)

/-- A block times a 128 × 2 matrix into a zero accumulator, at (p, j). -/
theorem matmul_out_apply (l : FVec Ideal S5000x128 .bf16) (r : FVec Ideal S128x2 .bf16) (p : Fin 5000) (j : Fin 2) :
    matmul dot_S5000x128_S128x2_S5000x2_1_0_0_1_n_n none l r (constant (F := Ideal) S5000x2 .f32 0x00000000#32) (ix2 p j)
      = ∑ q : Fin 128, l (ix2 p q) * r (ix2 q j) :=
  (Ideal.matmul_constant_zero_apply dot_S5000x128_S128x2_S5000x2_1_0_0_1_n_n none l r (ix2 p j)).trans (contr_out l r p j)

/-! ## A layer's body -/

/-- The pre-activation of a block: (a · wl + b) + x · wr, the bias a row repeated down the block. -/
def preBlk (a x : FVec Ideal S5000x128 .f32) (wl wr : FVec Ideal S128x128 .f32) (b : FVec Ideal S128 .f32) : FVec Ideal S5000x128 .f32 :=
  addf (addf (matmul dot_S5000x128_S128x128_S5000x128_1_0_0_1_n_n none (truncf .bf16 a bitsLt_bf16_f32) (truncf .bf16 wl bitsLt_bf16_f32) (constant (F := Ideal) S5000x128 .f32 0x00000000#32))
      (broadcastTo S5000x128 (shapeCast S1x128 b shapeCasts_S128_S1x128) broadcasts_S1x128_S5000x128))
    (matmul dot_S5000x128_S128x128_S5000x128_1_0_0_1_n_n none (truncf .bf16 x bitsLt_bf16_f32) (truncf .bf16 wr bitsLt_bf16_f32) (constant (F := Ideal) S5000x128 .f32 0x00000000#32))

theorem preBlk_apply (a x : FVec Ideal S5000x128 .f32) (wl wr : FVec Ideal S128x128 .f32) (b : FVec Ideal S128 .f32) (p : Fin 5000) (j : Fin 128) :
    preBlk a x wl wr b (ix2 p j) = preAt a x wl wr b p j := by
  unfold preBlk preAt affine
  show (matmul dot_S5000x128_S128x128_S5000x128_1_0_0_1_n_n none (truncf .bf16 a bitsLt_bf16_f32) (truncf .bf16 wl bitsLt_bf16_f32) (constant (F := Ideal) S5000x128 .f32 0x00000000#32) (ix2 p j)
      + broadcastTo S5000x128 (shapeCast S1x128 b shapeCasts_S128_S1x128) broadcasts_S1x128_S5000x128 (ix2 p j))
    + matmul dot_S5000x128_S128x128_S5000x128_1_0_0_1_n_n none (truncf .bf16 x bitsLt_bf16_f32) (truncf .bf16 wr bitsLt_bf16_f32) (constant (F := Ideal) S5000x128 .f32 0x00000000#32) (ix2 p j) = _
  rw [matmul_sq_apply, matmul_sq_apply, broadcastTo_1b_ab_apply, shapeCast_a_1a_apply]
  rfl

/-- A block's rows divided by their clamped lengths, negative entries clipped. -/
def normBlk (s : FVec Ideal S5000x128 .f32) : FVec Ideal S5000x128 .f32 :=
  maximumf (divf s (broadcastTo S5000x128
      (maximumf (sqrt (shapeCast S5000x1 (multiReduction .add [1] S5000 (mulf s s) 0x00000000#32 reduces_S5000x128_S5000 (.inl rfl) rfl) shapeCasts_S5000_S5000x1))
        (broadcast S5000x1 (Scalar.ofBits (F := Ideal) .f32 0x2B8CBCCC#32)))
      broadcasts_S5000x1_S5000x128))
    (broadcast S5000x128 (Scalar.ofBits (F := Ideal) .f32 0x00000000#32))

theorem normBlk_apply (s : FVec Ideal S5000x128 .f32) (p : Fin 5000) (j : Fin 128) :
    normBlk s (ix2 p j) = normReluAt (fun q => s (ix2 p q)) j := by
  unfold normBlk normReluAt
  show max (Ideal.div (s (ix2 p j)) (broadcastTo S5000x128
      (maximumf (sqrt (shapeCast S5000x1 (multiReduction .add [1] S5000 (mulf s s) 0x00000000#32 reduces_S5000x128_S5000 (.inl rfl) rfl) shapeCasts_S5000_S5000x1))
        (broadcast S5000x1 (Scalar.ofBits (F := Ideal) .f32 0x2B8CBCCC#32)))
      broadcasts_S5000x1_S5000x128 (ix2 p j))) zeroW = _
  rw [broadcastTo_a1_ab_apply]
  show max (Ideal.div (s (ix2 p j)) (max (Ideal.sqrt (shapeCast S5000x1 (multiReduction .add [1] S5000 (mulf s s) 0x00000000#32 reduces_S5000x128_S5000 (.inl rfl) rfl) shapeCasts_S5000_S5000x1 (ix2 p (0 : Fin 1)))) epsW)) zeroW = _
  rw [laneSum_column_apply]
  rfl

/-- The layer's stored block at (p, j) is the layer's formula on row p of the two feature blocks. -/
theorem sageBlk_apply (a x : FVec Ideal S5000x128 .f32) (wl wr : FVec Ideal S128x128 .f32) (b : FVec Ideal S128 .f32) (p : Fin 5000) (j : Fin 128) :
    normBlk (preBlk a x wl wr b) (ix2 p j) = sageAt a x wl wr b p j := by
  rw [normBlk_apply]
  unfold sageAt
  exact congrArg (normReluAt · j) (funext fun q => preBlk_apply a x wl wr b p q)

/-- The three layers' stored values are that block function of what the body loads (a format-preserving recast is the identity). -/
theorem k0_pay1_eq (v0 v2 : Vec Ideal S5000x128 .f32) (v3 v6 : Vec Ideal S128x128 .f32) (v9 : Vec Ideal S128 .f32) :
    k0_pay1 (F := Ideal) v0 v2 v3 v6 v9 = normBlk (preBlk v0 v2 v3 v6 v9) := by
  unfold k0_pay1 normBlk preBlk
  simp only [shapeCast_self]
theorem k1_pay1_eq (v0 v2 : Vec Ideal S5000x128 .f32) (v4 v7 : Vec Ideal S128x128 .f32) (v10 : Vec Ideal S128 .f32) :
    k1_pay1 (F := Ideal) v0 v2 v4 v7 v10 = normBlk (preBlk v0 v2 v4 v7 v10) := by
  unfold k1_pay1 normBlk preBlk
  simp only [shapeCast_self]
theorem k2_pay1_eq (v0 v2 : Vec Ideal S5000x128 .f32) (v4 v7 : Vec Ideal S128x128 .f32) (v10 : Vec Ideal S128 .f32) :
    k2_pay1 (F := Ideal) v0 v2 v4 v7 v10 = normBlk (preBlk v0 v2 v4 v7 v10) := by
  unfold k2_pay1 normBlk preBlk
  simp only [shapeCast_self]

/-! ## The head's body -/

/-- The head on a block: max (x · w1 + b1, 0) · w2 + b2. -/
def mlpBlk (x : FVec Ideal S5000x128 .f32) (w1 : FVec Ideal S128x128 .f32) (b1 : FVec Ideal S128 .f32) (w2 : FVec Ideal S128x2 .f32) (b2 : FVec Ideal S2 .f32) : FVec Ideal S5000x2 .f32 :=
  addf (matmul dot_S5000x128_S128x2_S5000x2_1_0_0_1_n_n none
      (truncf .bf16 (maximumf (addf (matmul dot_S5000x128_S128x128_S5000x128_1_0_0_1_n_n none (truncf .bf16 x bitsLt_bf16_f32) (truncf .bf16 w1 bitsLt_bf16_f32) (constant (F := Ideal) S5000x128 .f32 0x00000000#32))
          (broadcastTo S5000x128 (shapeCast S1x128 b1 shapeCasts_S128_S1x128) broadcasts_S1x128_S5000x128))
        (broadcast S5000x128 (Scalar.ofBits (F := Ideal) .f32 0x00000000#32))) bitsLt_bf16_f32)
      (truncf .bf16 w2 bitsLt_bf16_f32) (constant (F := Ideal) S5000x2 .f32 0x00000000#32))
    (broadcastTo S5000x2 (shapeCast S1x2 b2 shapeCasts_S2_S1x2) broadcasts_S1x2_S5000x2)

theorem mlpBlk_apply (x : FVec Ideal S5000x128 .f32) (w1 : FVec Ideal S128x128 .f32) (b1 : FVec Ideal S128 .f32) (w2 : FVec Ideal S128x2 .f32) (b2 : FVec Ideal S2 .f32)
    (p : Fin 5000) (j : Fin 2) : mlpBlk x w1 b1 w2 b2 (ix2 p j) = mlpAt x w1 b1 w2 b2 p j := by
  unfold mlpBlk mlpAt
  show matmul dot_S5000x128_S128x2_S5000x2_1_0_0_1_n_n none _ (truncf .bf16 w2 bitsLt_bf16_f32) (constant (F := Ideal) S5000x2 .f32 0x00000000#32) (ix2 p j)
    + broadcastTo S5000x2 (shapeCast S1x2 b2 shapeCasts_S2_S1x2) broadcasts_S1x2_S5000x2 (ix2 p j) = _
  rw [matmul_out_apply, broadcastTo_1b_ab_apply, shapeCast_a_1a_apply]
  refine congrArg (· + b2 (ix1 j)) (Finset.sum_congr rfl fun q _ => ?_)
  refine congrArg (· * w2 (ix2 q j)) ?_
  show max (matmul dot_S5000x128_S128x128_S5000x128_1_0_0_1_n_n none (truncf .bf16 x bitsLt_bf16_f32) (truncf .bf16 w1 bitsLt_bf16_f32) (constant (F := Ideal) S5000x128 .f32 0x00000000#32) (ix2 p q)
    + broadcastTo S5000x128 (shapeCast S1x128 b1 shapeCasts_S128_S1x128) broadcasts_S1x128_S5000x128 (ix2 p q)) zeroW = _
  rw [matmul_sq_apply, broadcastTo_1b_ab_apply, shapeCast_a_1a_apply]
  rfl

theorem k3_pay1_eq (v0 : Vec Ideal S5000x128 .f32) (v2 : Vec Ideal S128x128 .f32) (v5 : Vec Ideal S128 .f32) (v6 : Vec Ideal S128x2 .f32) (v9 : Vec Ideal S2 .f32) :
    k3_pay1 (F := Ideal) v0 v2 v5 v6 v9 = mlpBlk v0 v2 v5 v6 v9 := by
  unfold k3_pay1 mlpBlk
  simp only [shapeCast_self]

end Cert.KernelIdeal.Blocks

end
-- ==== Proof.KernelRegions.lean ====
/-
  What each of the four kernel launches leaves in its output array, as one function of the arrays it finds.

  A launch walks twenty grid points. Point t reads rows 5000·t … 5000·t + 4999 of the two feature arrays (the
  weights and the bias whole), and writes the same rows of the output. Since an output row depends only on the same
  row of the features, what point t writes is exactly block t of the layer applied to the WHOLE arrays; the twenty
  blocks tile the 100000 rows, so after the launch the output array is the layer's output. The same for the head.
-/
import proofs.«181464_j3624952398755_1_alg».proof.Proof.Gen.KernelIdeal.Frame
import proofs.«181464_j3624952398755_1_alg».proof.Proof.KernelBlocks
import Idealize.ShloMosaic.Lib.Pipeline.Value

set_option maxRecDepth 16384

noncomputable section

namespace Cert.KernelIdeal.Regions

open Cert.KernelIdeal Cert.KernelIdeal.Gen Cert.KernelIdeal.Blocks Idealize.ShloMosaic Idealize.ShloMosaic.TcCoe Idealize.ShloMosaic.ValueIdx Cert.Spec
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## Region 0: a layer -/

/-- The index maps of region 0, decided over its twenty grid points: the two feature windows and the output move
    down the rows with the point, the weights and the bias stay put. -/
structure IdxFacts0 (t : Fin cfg0.N) : Prop where
  a0 : win0_0.index t (0 : Fin 2) = t.val
  a1 : win0_0.index t (1 : Fin 2) = 0
  x0 : win0_1.index t (0 : Fin 2) = t.val
  x1 : win0_1.index t (1 : Fin 2) = 0
  wl0 : win0_2.index t (0 : Fin 2) = 0
  wl1 : win0_2.index t (1 : Fin 2) = 0
  b0 : win0_3.index t (0 : Fin 1) = 0
  wr0 : win0_4.index t (0 : Fin 2) = 0
  wr1 : win0_4.index t (1 : Fin 2) = 0
  out0 : win0_5.index t (0 : Fin 2) = t.val
  out1 : win0_5.index t (1 : Fin 2) = 0

theorem idx0 : ∀ t : Fin cfg0.N, IdxFacts0 t :=
  fun t => (show ∀ t : Fin grid0.N, win0_0.index t (0 : Fin 2) = t.val ∧ win0_0.index t (1 : Fin 2) = 0
      ∧ win0_1.index t (0 : Fin 2) = t.val ∧ win0_1.index t (1 : Fin 2) = 0
      ∧ win0_2.index t (0 : Fin 2) = 0 ∧ win0_2.index t (1 : Fin 2) = 0
      ∧ win0_3.index t (0 : Fin 1) = 0
      ∧ win0_4.index t (0 : Fin 2) = 0 ∧ win0_4.index t (1 : Fin 2) = 0
      ∧ win0_5.index t (0 : Fin 2) = t.val ∧ win0_5.index t (1 : Fin 2) = 0 from by decide +kernel) t |>
    fun ⟨h0, h1, h2, h3, h4, h5, h6, h7, h8, h9, h10⟩ => ⟨h0, h1, h2, h3, h4, h5, h6, h7, h8, h9, h10⟩

set_option maxHeartbeats 1000000 in
/-- What point t writes back is block t of the layer's output on the arrays as the region finds them. -/
theorem flushed0 (c : Dev nD) (t : Fin cfg0.N) :
    (dat0 V c).flushed 5 t = ((cfg0.win 5).blk t).view.read (Elt Ideal)
      (sageArr (n := 100000) (V c main_v24) (V c main_arg0) (V c main_v27) (V c main_v30) (V c main_v32)) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S128) hz1]
  rw [k0_pay1_eq]
  have e := idx0 t
  obtain ⟨e00, e01, e10, e11, e20, e21, e30, e40, e41, e50, e51⟩ := e
  have ht : t.val < 20 := by have h1 := t.isLt; have h2 : cfg0.N = 20 := N_0; omega
  funext y
  obtain ⟨p, j, rfl⟩ : ∃ (p : Fin 5000) (j : Fin 128), y = ix2 p j := ⟨y 0, y 1, eq_ix2 y⟩
  have hp : p.val < 5000 := p.isLt
  have he5 : ∀ q : Fin 128, ((cfg0.win 5).blk t).view.emb (ix2 p q) = ix2 (⟨5000 * t.val + p.val, by omega⟩ : Fin 100000) q := by
    intro q; funext a; apply Fin.ext
    match a with
    | ⟨0, _⟩ => show win0_5.index t (0 : Fin 2) * 5000 + 1 * p.val = 5000 * t.val + p.val; omega
    | ⟨1, _⟩ => show win0_5.index t (1 : Fin 2) * 128 + 1 * q.val = q.val; omega
  have he0 : ∀ q : Fin 128, ((cfg0.win 0).blk t).view.emb (ix2 p q) = ix2 (⟨5000 * t.val + p.val, by omega⟩ : Fin 100000) q := by
    intro q; funext a; apply Fin.ext
    match a with
    | ⟨0, _⟩ => show win0_0.index t (0 : Fin 2) * 5000 + 1 * p.val = 5000 * t.val + p.val; omega
    | ⟨1, _⟩ => show win0_0.index t (1 : Fin 2) * 128 + 1 * q.val = q.val; omega
  have he1 : ∀ q : Fin 128, ((cfg0.win 1).blk t).view.emb (ix2 p q) = ix2 (⟨5000 * t.val + p.val, by omega⟩ : Fin 100000) q := by
    intro q; funext a; apply Fin.ext
    match a with
    | ⟨0, _⟩ => show win0_1.index t (0 : Fin 2) * 5000 + 1 * p.val = 5000 * t.val + p.val; omega
    | ⟨1, _⟩ => show win0_1.index t (1 : Fin 2) * 128 + 1 * q.val = q.val; omega
  have he2 : ∀ i : S128x128.Idx, ((cfg0.win 2).blk t).view.emb i = i := by
    intro i; funext a; apply Fin.ext
    match a with
    | ⟨0, _⟩ => show win0_2.index t (0 : Fin 2) * 128 + 1 * (i 0).val = (i 0).val; omega
    | ⟨1, _⟩ => show win0_2.index t (1 : Fin 2) * 128 + 1 * (i 1).val = (i 1).val; omega
  have he3 : ∀ i : S128.Idx, ((cfg0.win 3).blk t).view.emb i = i := by
    intro i; funext a; apply Fin.ext
    match a with
    | ⟨0, _⟩ => show win0_3.index t (0 : Fin 1) * 128 + 1 * (i 0).val = (i 0).val; omega
  have he4 : ∀ i : S128x128.Idx, ((cfg0.win 4).blk t).view.emb i = i := by
    intro i; funext a; apply Fin.ext
    match a with
    | ⟨0, _⟩ => show win0_4.index t (0 : Fin 2) * 128 + 1 * (i 0).val = (i 0).val; omega
    | ⟨1, _⟩ => show win0_4.index t (1 : Fin 2) * 128 + 1 * (i 1).val = (i 1).val; omega
  show normBlk (preBlk (fun i => V c main_v24 (((cfg0.win 0).blk t).view.emb i)) (fun i => V c main_arg0 (((cfg0.win 1).blk t).view.emb i))
        (fun i => V c main_v27 (((cfg0.win 2).blk t).view.emb i)) (fun i => V c main_v30 (((cfg0.win 4).blk t).view.emb i))
        (fun i => V c main_v32 (((cfg0.win 3).blk t).view.emb i))) (ix2 p j)
      = sageArr (n := 100000) (V c main_v24) (V c main_arg0) (V c main_v27) (V c main_v30) (V c main_v32) (((cfg0.win 5).blk t).view.emb (ix2 p j))
  rw [he5 j, sageArr_ix2, sageBlk_apply]
  simp only [he2, he3, he4]
  exact sageAt_congr _ _ _ _ _ _ _ p _ (fun q => congrArg (V c main_v24) (he0 q)) (fun q => congrArg (V c main_arg0) (he1 q)) j

/-- An index of the output array is in point t's block iff its row is among the 5000 rows the point owns. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v33).slice (win0_5.rect t)).set ↔ _
  rw [View.set_slice_whole, Rect.mem_set_unit]
  exact Iff.rfl

/-- Row r of the output array is written by the point r / 5000: the twenty blocks tile the array. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have ht : (i 0).val / 5000 < cfg0.N := by rw [hN]; omega
  refine ⟨⟨(i 0).val / 5000, ht⟩, flush0_5 _, ?_⟩
  rw [mem_blk0]
  have e := idx0 ⟨(i 0).val / 5000, ht⟩
  have e50 : win0_5.index ⟨(i 0).val / 5000, ht⟩ (0 : Fin 2) = (i 0).val / 5000 := e.out0
  have e51 : win0_5.index ⟨(i 0).val / 5000, ht⟩ (1 : Fin 2) = 0 := e.out1
  intro a
  match a with
  | ⟨0, _⟩ => show win0_5.index ⟨(i 0).val / 5000, ht⟩ (0 : Fin 2) * 5000 ≤ (i 0).val ∧ (i 0).val < win0_5.index ⟨(i 0).val / 5000, ht⟩ (0 : Fin 2) * 5000 + 5000; omega
  | ⟨1, _⟩ => show win0_5.index ⟨(i 0).val / 5000, ht⟩ (1 : Fin 2) * 128 ≤ (i 1).val ∧ (i 1).val < win0_5.index ⟨(i 0).val / 5000, ht⟩ (1 : Fin 2) * 128 + 128; omega

/-- After region 0 its output array holds the layer's output on the arrays as the region found them. -/
theorem region0 (c : Dev nD) : (dat0 V c).arrAt 5 cfg0.N
    = sageArr (n := 100000) (V c main_v24) (V c main_arg0) (V c main_v27) (V c main_v30) (V c main_v32) :=
  (dat0 V c).arrAt_eq_of_cover 5 _ (fun t _ => flushed0 V c t) cover0

/-! ## Region 1: a layer -/

/-- The index maps of region 1, decided over its twenty grid points: the two feature windows and the output move
    down the rows with the point, the weights and the bias stay put. -/
structure IdxFacts1 (t : Fin cfg1.N) : Prop where
  a0 : win1_0.index t (0 : Fin 2) = t.val
  a1 : win1_0.index t (1 : Fin 2) = 0
  x0 : win1_1.index t (0 : Fin 2) = t.val
  x1 : win1_1.index t (1 : Fin 2) = 0
  wl0 : win1_2.index t (0 : Fin 2) = 0
  wl1 : win1_2.index t (1 : Fin 2) = 0
  b0 : win1_3.index t (0 : Fin 1) = 0
  wr0 : win1_4.index t (0 : Fin 2) = 0
  wr1 : win1_4.index t (1 : Fin 2) = 0
  out0 : win1_5.index t (0 : Fin 2) = t.val
  out1 : win1_5.index t (1 : Fin 2) = 0

theorem idx1 : ∀ t : Fin cfg1.N, IdxFacts1 t :=
  fun t => (show ∀ t : Fin grid1.N, win1_0.index t (0 : Fin 2) = t.val ∧ win1_0.index t (1 : Fin 2) = 0
      ∧ win1_1.index t (0 : Fin 2) = t.val ∧ win1_1.index t (1 : Fin 2) = 0
      ∧ win1_2.index t (0 : Fin 2) = 0 ∧ win1_2.index t (1 : Fin 2) = 0
      ∧ win1_3.index t (0 : Fin 1) = 0
      ∧ win1_4.index t (0 : Fin 2) = 0 ∧ win1_4.index t (1 : Fin 2) = 0
      ∧ win1_5.index t (0 : Fin 2) = t.val ∧ win1_5.index t (1 : Fin 2) = 0 from by decide +kernel) t |>
    fun ⟨h0, h1, h2, h3, h4, h5, h6, h7, h8, h9, h10⟩ => ⟨h0, h1, h2, h3, h4, h5, h6, h7, h8, h9, h10⟩

set_option maxHeartbeats 1000000 in
/-- What point t writes back is block t of the layer's output on the arrays as the region finds them. -/
theorem flushed1 (c : Dev nD) (t : Fin cfg1.N) :
    (dat1 V c).flushed 5 t = ((cfg1.win 5).blk t).view.read (Elt Ideal)
      (sageArr (n := 100000) (V c main_v45) (V c main_v33) (V c main_v48) (V c main_v51) (V c main_v53)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S128) hz1]
  rw [k1_pay1_eq]
  have e := idx1 t
  obtain ⟨e00, e01, e10, e11, e20, e21, e30, e40, e41, e50, e51⟩ := e
  have ht : t.val < 20 := by have h1 := t.isLt; have h2 : cfg1.N = 20 := N_1; omega
  funext y
  obtain ⟨p, j, rfl⟩ : ∃ (p : Fin 5000) (j : Fin 128), y = ix2 p j := ⟨y 0, y 1, eq_ix2 y⟩
  have hp : p.val < 5000 := p.isLt
  have he5 : ∀ q : Fin 128, ((cfg1.win 5).blk t).view.emb (ix2 p q) = ix2 (⟨5000 * t.val + p.val, by omega⟩ : Fin 100000) q := by
    intro q; funext a; apply Fin.ext
    match a with
    | ⟨0, _⟩ => show win1_5.index t (0 : Fin 2) * 5000 + 1 * p.val = 5000 * t.val + p.val; omega
    | ⟨1, _⟩ => show win1_5.index t (1 : Fin 2) * 128 + 1 * q.val = q.val; omega
  have he0 : ∀ q : Fin 128, ((cfg1.win 0).blk t).view.emb (ix2 p q) = ix2 (⟨5000 * t.val + p.val, by omega⟩ : Fin 100000) q := by
    intro q; funext a; apply Fin.ext
    match a with
    | ⟨0, _⟩ => show win1_0.index t (0 : Fin 2) * 5000 + 1 * p.val = 5000 * t.val + p.val; omega
    | ⟨1, _⟩ => show win1_0.index t (1 : Fin 2) * 128 + 1 * q.val = q.val; omega
  have he1 : ∀ q : Fin 128, ((cfg1.win 1).blk t).view.emb (ix2 p q) = ix2 (⟨5000 * t.val + p.val, by omega⟩ : Fin 100000) q := by
    intro q; funext a; apply Fin.ext
    match a with
    | ⟨0, _⟩ => show win1_1.index t (0 : Fin 2) * 5000 + 1 * p.val = 5000 * t.val + p.val; omega
    | ⟨1, _⟩ => show win1_1.index t (1 : Fin 2) * 128 + 1 * q.val = q.val; omega
  have he2 : ∀ i : S128x128.Idx, ((cfg1.win 2).blk t).view.emb i = i := by
    intro i; funext a; apply Fin.ext
    match a with
    | ⟨0, _⟩ => show win1_2.index t (0 : Fin 2) * 128 + 1 * (i 0).val = (i 0).val; omega
    | ⟨1, _⟩ => show win1_2.index t (1 : Fin 2) * 128 + 1 * (i 1).val = (i 1).val; omega
  have he3 : ∀ i : S128.Idx, ((cfg1.win 3).blk t).view.emb i = i := by
    intro i; funext a; apply Fin.ext
    match a with
    | ⟨0, _⟩ => show win1_3.index t (0 : Fin 1) * 128 + 1 * (i 0).val = (i 0).val; omega
  have he4 : ∀ i : S128x128.Idx, ((cfg1.win 4).blk t).view.emb i = i := by
    intro i; funext a; apply Fin.ext
    match a with
    | ⟨0, _⟩ => show win1_4.index t (0 : Fin 2) * 128 + 1 * (i 0).val = (i 0).val; omega
    | ⟨1, _⟩ => show win1_4.index t (1 : Fin 2) * 128 + 1 * (i 1).val = (i 1).val; omega
  show normBlk (preBlk (fun i => V c main_v45 (((cfg1.win 0).blk t).view.emb i)) (fun i => V c main_v33 (((cfg1.win 1).blk t).view.emb i))
        (fun i => V c main_v48 (((cfg1.win 2).blk t).view.emb i)) (fun i => V c main_v51 (((cfg1.win 4).blk t).view.emb i))
        (fun i => V c main_v53 (((cfg1.win 3).blk t).view.emb i))) (ix2 p j)
      = sageArr (n := 100000) (V c main_v45) (V c main_v33) (V c main_v48) (V c main_v51) (V c main_v53) (((cfg1.win 5).blk t).view.emb (ix2 p j))
  rw [he5 j, sageArr_ix2, sageBlk_apply]
  simp only [he2, he3, he4]
  exact sageAt_congr _ _ _ _ _ _ _ p _ (fun q => congrArg (V c main_v45) (he0 q)) (fun q => congrArg (V c main_v33) (he1 q)) j

/-- An index of the output array is in point t's block iff its row is among the 5000 rows the point owns. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v54).slice (win1_5.rect t)).set ↔ _
  rw [View.set_slice_whole, Rect.mem_set_unit]
  exact Iff.rfl

/-- Row r of the output array is written by the point r / 5000: the twenty blocks tile the array. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have ht : (i 0).val / 5000 < cfg1.N := by rw [hN]; omega
  refine ⟨⟨(i 0).val / 5000, ht⟩, flush1_5 _, ?_⟩
  rw [mem_blk1]
  have e := idx1 ⟨(i 0).val / 5000, ht⟩
  have e50 : win1_5.index ⟨(i 0).val / 5000, ht⟩ (0 : Fin 2) = (i 0).val / 5000 := e.out0
  have e51 : win1_5.index ⟨(i 0).val / 5000, ht⟩ (1 : Fin 2) = 0 := e.out1
  intro a
  match a with
  | ⟨0, _⟩ => show win1_5.index ⟨(i 0).val / 5000, ht⟩ (0 : Fin 2) * 5000 ≤ (i 0).val ∧ (i 0).val < win1_5.index ⟨(i 0).val / 5000, ht⟩ (0 : Fin 2) * 5000 + 5000; omega
  | ⟨1, _⟩ => show win1_5.index ⟨(i 0).val / 5000, ht⟩ (1 : Fin 2) * 128 ≤ (i 1).val ∧ (i 1).val < win1_5.index ⟨(i 0).val / 5000, ht⟩ (1 : Fin 2) * 128 + 128; omega

/-- After region 1 its output array holds the layer's output on the arrays as the region found them. -/
theorem region1 (c : Dev nD) : (dat1 V c).arrAt 5 cfg1.N
    = sageArr (n := 100000) (V c main_v45) (V c main_v33) (V c main_v48) (V c main_v51) (V c main_v53) :=
  (dat1 V c).arrAt_eq_of_cover 5 _ (fun t _ => flushed1 V c t) cover1

/-! ## Region 2: a layer -/

/-- The index maps of region 2, decided over its twenty grid points: the two feature windows and the output move
    down the rows with the point, the weights and the bias stay put. -/
structure IdxFacts2 (t : Fin cfg2.N) : Prop where
  a0 : win2_0.index t (0 : Fin 2) = t.val
  a1 : win2_0.index t (1 : Fin 2) = 0
  x0 : win2_1.index t (0 : Fin 2) = t.val
  x1 : win2_1.index t (1 : Fin 2) = 0
  wl0 : win2_2.index t (0 : Fin 2) = 0
  wl1 : win2_2.index t (1 : Fin 2) = 0
  b0 : win2_3.index t (0 : Fin 1) = 0
  wr0 : win2_4.index t (0 : Fin 2) = 0
  wr1 : win2_4.index t (1 : Fin 2) = 0
  out0 : win2_5.index t (0 : Fin 2) = t.val
  out1 : win2_5.index t (1 : Fin 2) = 0

theorem idx2 : ∀ t : Fin cfg2.N, IdxFacts2 t :=
  fun t => (show ∀ t : Fin grid2.N, win2_0.index t (0 : Fin 2) = t.val ∧ win2_0.index t (1 : Fin 2) = 0
      ∧ win2_1.index t (0 : Fin 2) = t.val ∧ win2_1.index t (1 : Fin 2) = 0
      ∧ win2_2.index t (0 : Fin 2) = 0 ∧ win2_2.index t (1 : Fin 2) = 0
      ∧ win2_3.index t (0 : Fin 1) = 0
      ∧ win2_4.index t (0 : Fin 2) = 0 ∧ win2_4.index t (1 : Fin 2) = 0
      ∧ win2_5.index t (0 : Fin 2) = t.val ∧ win2_5.index t (1 : Fin 2) = 0 from by decide +kernel) t |>
    fun ⟨h0, h1, h2, h3, h4, h5, h6, h7, h8, h9, h10⟩ => ⟨h0, h1, h2, h3, h4, h5, h6, h7, h8, h9, h10⟩

set_option maxHeartbeats 1000000 in
/-- What point t writes back is block t of the layer's output on the arrays as the region finds them. -/
theorem flushed2 (c : Dev nD) (t : Fin cfg2.N) :
    (dat2 V c).flushed 5 t = ((cfg2.win 5).blk t).view.read (Elt Ideal)
      (sageArr (n := 100000) (V c main_v66) (V c main_v54) (V c main_v69) (V c main_v72) (V c main_v74)) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S128x128) hz2, View.ld_unit_zero (S := S128) hz1]
  rw [k2_pay1_eq]
  have e := idx2 t
  obtain ⟨e00, e01, e10, e11, e20, e21, e30, e40, e41, e50, e51⟩ := e
  have ht : t.val < 20 := by have h1 := t.isLt; have h2 : cfg2.N = 20 := N_2; omega
  funext y
  obtain ⟨p, j, rfl⟩ : ∃ (p : Fin 5000) (j : Fin 128), y = ix2 p j := ⟨y 0, y 1, eq_ix2 y⟩
  have hp : p.val < 5000 := p.isLt
  have he5 : ∀ q : Fin 128, ((cfg2.win 5).blk t).view.emb (ix2 p q) = ix2 (⟨5000 * t.val + p.val, by omega⟩ : Fin 100000) q := by
    intro q; funext a; apply Fin.ext
    match a with
    | ⟨0, _⟩ => show win2_5.index t (0 : Fin 2) * 5000 + 1 * p.val = 5000 * t.val + p.val; omega
    | ⟨1, _⟩ => show win2_5.index t (1 : Fin 2) * 128 + 1 * q.val = q.val; omega
  have he0 : ∀ q : Fin 128, ((cfg2.win 0).blk t).view.emb (ix2 p q) = ix2 (⟨5000 * t.val + p.val, by omega⟩ : Fin 100000) q := by
    intro q; funext a; apply Fin.ext
    match a with
    | ⟨0, _⟩ => show win2_0.index t (0 : Fin 2) * 5000 + 1 * p.val = 5000 * t.val + p.val; omega
    | ⟨1, _⟩ => show win2_0.index t (1 : Fin 2) * 128 + 1 * q.val = q.val; omega
  have he1 : ∀ q : Fin 128, ((cfg2.win 1).blk t).view.emb (ix2 p q) = ix2 (⟨5000 * t.val + p.val, by omega⟩ : Fin 100000) q := by
    intro q; funext a; apply Fin.ext
    match a with
    | ⟨0, _⟩ => show win2_1.index t (0 : Fin 2) * 5000 + 1 * p.val = 5000 * t.val + p.val; omega
    | ⟨1, _⟩ => show win2_1.index t (1 : Fin 2) * 128 + 1 * q.val = q.val; omega
  have he2 : ∀ i : S128x128.Idx, ((cfg2.win 2).blk t).view.emb i = i := by
    intro i; funext a; apply Fin.ext
    match a with
    | ⟨0, _⟩ => show win2_2.index t (0 : Fin 2) * 128 + 1 * (i 0).val = (i 0).val; omega
    | ⟨1, _⟩ => show win2_2.index t (1 : Fin 2) * 128 + 1 * (i 1).val = (i 1).val; omega
  have he3 : ∀ i : S128.Idx, ((cfg2.win 3).blk t).view.emb i = i := by
    intro i; funext a; apply Fin.ext
    match a with
    | ⟨0, _⟩ => show win2_3.index t (0 : Fin 1) * 128 + 1 * (i 0).val = (i 0).val; omega
  have he4 : ∀ i : S128x128.Idx, ((cfg2.win 4).blk t).view.emb i = i := by
    intro i; funext a; apply Fin.ext
    match a with
    | ⟨0, _⟩ => show win2_4.index t (0 : Fin 2) * 128 + 1 * (i 0).val = (i 0).val; omega
    | ⟨1, _⟩ => show win2_4.index t (1 : Fin 2) * 128 + 1 * (i 1).val = (i 1).val; omega
  show normBlk (preBlk (fun i => V c main_v66 (((cfg2.win 0).blk t).view.emb i)) (fun i => V c main_v54 (((cfg2.win 1).blk t).view.emb i))
        (fun i => V c main_v69 (((cfg2.win 2).blk t).view.emb i)) (fun i => V c main_v72 (((cfg2.win 4).blk t).view.emb i))
        (fun i => V c main_v74 (((cfg2.win 3).blk t).view.emb i))) (ix2 p j)
      = sageArr (n := 100000) (V c main_v66) (V c main_v54) (V c main_v69) (V c main_v72) (V c main_v74) (((cfg2.win 5).blk t).view.emb (ix2 p j))
  rw [he5 j, sageArr_ix2, sageBlk_apply]
  simp only [he2, he3, he4]
  exact sageAt_congr _ _ _ _ _ _ _ p _ (fun q => congrArg (V c main_v66) (he0 q)) (fun q => congrArg (V c main_v54) (he1 q)) j

/-- An index of the output array is in point t's block iff its row is among the 5000 rows the point owns. -/
theorem mem_blk2 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v75).slice (win2_5.rect t)).set ↔ _
  rw [View.set_slice_whole, Rect.mem_set_unit]
  exact Iff.rfl

/-- Row r of the output array is written by the point r / 5000: the twenty blocks tile the array. -/
theorem cover2 (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  have ht : (i 0).val / 5000 < cfg2.N := by rw [hN]; omega
  refine ⟨⟨(i 0).val / 5000, ht⟩, flush2_5 _, ?_⟩
  rw [mem_blk2]
  have e := idx2 ⟨(i 0).val / 5000, ht⟩
  have e50 : win2_5.index ⟨(i 0).val / 5000, ht⟩ (0 : Fin 2) = (i 0).val / 5000 := e.out0
  have e51 : win2_5.index ⟨(i 0).val / 5000, ht⟩ (1 : Fin 2) = 0 := e.out1
  intro a
  match a with
  | ⟨0, _⟩ => show win2_5.index ⟨(i 0).val / 5000, ht⟩ (0 : Fin 2) * 5000 ≤ (i 0).val ∧ (i 0).val < win2_5.index ⟨(i 0).val / 5000, ht⟩ (0 : Fin 2) * 5000 + 5000; omega
  | ⟨1, _⟩ => show win2_5.index ⟨(i 0).val / 5000, ht⟩ (1 : Fin 2) * 128 ≤ (i 1).val ∧ (i 1).val < win2_5.index ⟨(i 0).val / 5000, ht⟩ (1 : Fin 2) * 128 + 128; omega

/-- After region 2 its output array holds the layer's output on the arrays as the region found them. -/
theorem region2 (c : Dev nD) : (dat2 V c).arrAt 5 cfg2.N
    = sageArr (n := 100000) (V c main_v66) (V c main_v54) (V c main_v69) (V c main_v72) (V c main_v74) :=
  (dat2 V c).arrAt_eq_of_cover 5 _ (fun t _ => flushed2 V c t) cover2

/-! ## Region 3: the head -/

/-- The index maps of region 3 over its twenty grid points. -/
structure IdxFacts3 (t : Fin cfg3.N) : Prop where
  x0 : win3_0.index t (0 : Fin 2) = t.val
  x1 : win3_0.index t (1 : Fin 2) = 0
  w10 : win3_1.index t (0 : Fin 2) = 0
  w11 : win3_1.index t (1 : Fin 2) = 0
  b10 : win3_2.index t (0 : Fin 1) = 0
  w20 : win3_3.index t (0 : Fin 2) = 0
  w21 : win3_3.index t (1 : Fin 2) = 0
  b20 : win3_4.index t (0 : Fin 1) = 0
  out0 : win3_5.index t (0 : Fin 2) = t.val
  out1 : win3_5.index t (1 : Fin 2) = 0

theorem idx3 : ∀ t : Fin cfg3.N, IdxFacts3 t :=
  fun t => (show ∀ t : Fin grid3.N, win3_0.index t (0 : Fin 2) = t.val ∧ win3_0.index t (1 : Fin 2) = 0
      ∧ win3_1.index t (0 : Fin 2) = 0 ∧ win3_1.index t (1 : Fin 2) = 0
      ∧ win3_2.index t (0 : Fin 1) = 0
      ∧ win3_3.index t (0 : Fin 2) = 0 ∧ win3_3.index t (1 : Fin 2) = 0
      ∧ win3_4.index t (0 : Fin 1) = 0
      ∧ win3_5.index t (0 : Fin 2) = t.val ∧ win3_5.index t (1 : Fin 2) = 0 from by decide +kernel) t |>
    fun ⟨h0, h1, h2, h3, h4, h5, h6, h7, h8, h9⟩ => ⟨h0, h1, h2, h3, h4, h5, h6, h7, h8, h9⟩

set_option maxHeartbeats 1000000 in
/-- What point t writes back is block t of the head's output on the arrays as the region finds them. -/
theorem flushed3 (c : Dev nD) (t : Fin cfg3.N) :
    (dat3 V c).flushed 5 t = ((cfg3.win 5).blk t).view.read (Elt Ideal)
      (mlpArr (n := 100000) (V c main_v75) (V c main_v76) (V c main_arg6) (V c main_v77) (V c main_arg8)) := by
  show (cfg3.win 5).cut (grid3.coords t) ((dat3 V c).after 5 t) = _
  rw [after3_5]
  unfold out3_5
  rw [View.canon_unit_zero hz2]
  simp only [View.ld_unit_zero (S := S5000x128) hz2, View.ld_unit_zero (S := S128x128) hz2, View.ld_unit_zero (S := S128) hz1,
    View.ld_unit_zero (S := S128x2) hz2, View.ld_unit_zero (S := S2) hz1]
  rw [k3_pay1_eq]
  obtain ⟨e00, e01, e10, e11, e20, e30, e31, e40, e50, e51⟩ := idx3 t
  have ht : t.val < 20 := by have h1 := t.isLt; have h2 : cfg3.N = 20 := N_3; omega
  funext y
  obtain ⟨p, j, rfl⟩ : ∃ (p : Fin 5000) (j : Fin 2), y = ix2 p j := ⟨y 0, y 1, eq_ix2 y⟩
  have hp : p.val < 5000 := p.isLt
  have he5 : ∀ q : Fin 2, ((cfg3.win 5).blk t).view.emb (ix2 p q) = ix2 (⟨5000 * t.val + p.val, by omega⟩ : Fin 100000) q := by
    intro q; funext a; apply Fin.ext
    match a with
    | ⟨0, _⟩ => show win3_5.index t (0 : Fin 2) * 5000 + 1 * p.val = 5000 * t.val + p.val; omega
    | ⟨1, _⟩ => show win3_5.index t (1 : Fin 2) * 2 + 1 * q.val = q.val; omega
  have he0 : ∀ q : Fin 128, ((cfg3.win 0).blk t).view.emb (ix2 p q) = ix2 (⟨5000 * t.val + p.val, by omega⟩ : Fin 100000) q := by
    intro q; funext a; apply Fin.ext
    match a with
    | ⟨0, _⟩ => show win3_0.index t (0 : Fin 2) * 5000 + 1 * p.val = 5000 * t.val + p.val; omega
    | ⟨1, _⟩ => show win3_0.index t (1 : Fin 2) * 128 + 1 * q.val = q.val; omega
  have he1 : ∀ i : S128x128.Idx, ((cfg3.win 1).blk t).view.emb i = i := by
    intro i; funext a; apply Fin.ext
    match a with
    | ⟨0, _⟩ => show win3_1.index t (0 : Fin 2) * 128 + 1 * (i 0).val = (i 0).val; omega
    | ⟨1, _⟩ => show win3_1.index t (1 : Fin 2) * 128 + 1 * (i 1).val = (i 1).val; omega
  have he2 : ∀ i : S128.Idx, ((cfg3.win 2).blk t).view.emb i = i := by
    intro i; funext a; apply Fin.ext
    match a with
    | ⟨0, _⟩ => show win3_2.index t (0 : Fin 1) * 128 + 1 * (i 0).val = (i 0).val; omega
  have he3 : ∀ i : S128x2.Idx, ((cfg3.win 3).blk t).view.emb i = i := by
    intro i; funext a; apply Fin.ext
    match a with
    | ⟨0, _⟩ => show win3_3.index t (0 : Fin 2) * 128 + 1 * (i 0).val = (i 0).val; omega
    | ⟨1, _⟩ => show win3_3.index t (1 : Fin 2) * 2 + 1 * (i 1).val = (i 1).val; omega
  have he4 : ∀ i : S2.Idx, ((cfg3.win 4).blk t).view.emb i = i := by
    intro i; funext a; apply Fin.ext
    match a with
    | ⟨0, _⟩ => show win3_4.index t (0 : Fin 1) * 2 + 1 * (i 0).val = (i 0).val; omega
  show mlpBlk (fun i => V c main_v75 (((cfg3.win 0).blk t).view.emb i)) (fun i => V c main_v76 (((cfg3.win 1).blk t).view.emb i))
        (fun i => V c main_arg6 (((cfg3.win 2).blk t).view.emb i)) (fun i => V c main_v77 (((cfg3.win 3).blk t).view.emb i))
        (fun i => V c main_arg8 (((cfg3.win 4).blk t).view.emb i)) (ix2 p j)
      = mlpArr (n := 100000) (V c main_v75) (V c main_v76) (V c main_arg6) (V c main_v77) (V c main_arg8) (((cfg3.win 5).blk t).view.emb (ix2 p j))
  rw [he5 j, mlpArr_ix2, mlpBlk_apply]
  simp only [he1, he2, he3, he4]
  exact mlpAt_congr _ _ _ _ _ _ p _ (fun q => congrArg (V c main_v75) (he0 q)) j

/-- An index of the output array is in point t's block iff its row is among the 5000 rows the point owns. -/
theorem mem_blk3 (t : Fin cfg3.N) (i : S100000x2.Idx) :
    i ∈ ((cfg3.win 5).blk t).view.set ↔ ∀ a : Fin 2, win3_5.index t a * S5000x2.size a ≤ (i a).val ∧ (i a).val < win3_5.index t a * S5000x2.size a + S5000x2.size a := by
  show i ∈ ((View.whole main_v78).slice (win3_5.rect t)).set ↔ _
  rw [View.set_slice_whole, Rect.mem_set_unit]
  exact Iff.rfl

/-- Row r of the output array is written by the point r / 5000: the twenty blocks tile the array. -/
theorem cover3 (i : S100000x2.Idx) : ∃ t : Fin cfg3.N, (cfg3.win 5).flush t = true ∧ i ∈ ((cfg3.win 5).blk t).view.set := by
  have hi0 : (i 0).val < 100000 := (i 0).isLt
  have hi1 : (i 1).val < 2 := (i 1).isLt
  have hN : cfg3.N = 20 := N_3
  have ht : (i 0).val / 5000 < cfg3.N := by rw [hN]; omega
  refine ⟨⟨(i 0).val / 5000, ht⟩, flush3_5 _, ?_⟩
  rw [mem_blk3]
  have e := idx3 ⟨(i 0).val / 5000, ht⟩
  have e50 : win3_5.index ⟨(i 0).val / 5000, ht⟩ (0 : Fin 2) = (i 0).val / 5000 := e.out0
  have e51 : win3_5.index ⟨(i 0).val / 5000, ht⟩ (1 : Fin 2) = 0 := e.out1
  intro a
  match a with
  | ⟨0, _⟩ => show win3_5.index ⟨(i 0).val / 5000, ht⟩ (0 : Fin 2) * 5000 ≤ (i 0).val ∧ (i 0).val < win3_5.index ⟨(i 0).val / 5000, ht⟩ (0 : Fin 2) * 5000 + 5000; omega
  | ⟨1, _⟩ => show win3_5.index ⟨(i 0).val / 5000, ht⟩ (1 : Fin 2) * 2 ≤ (i 1).val ∧ (i 1).val < win3_5.index ⟨(i 0).val / 5000, ht⟩ (1 : Fin 2) * 2 + 2; omega

/-- After region 3 its output array holds the head's output on the arrays as the region found them. -/
theorem region3 (c : Dev nD) : (dat3 V c).arrAt 5 cfg3.N
    = mlpArr (n := 100000) (V c main_v75) (V c main_v76) (V c main_arg6) (V c main_v77) (V c main_arg8) :=
  (dat3 V c).arrAt_eq_of_cover 5 _ (fun t _ => flushed3 V c t) cover3

end Cert.KernelIdeal.Regions

end
-- ==== Proof.RefLayers.lean ====
/-
  The reference's layer and head as functions of whole arrays, entry by entry.

  The reference spells a layer with host operations on the whole 100000 × 128 arrays: two matrix products and a
  bias row repeated down the array, the row sums of the squares, a square root, a clamp from below, a division and
  a clip at zero. Over the extended reals each product is a plain sum over the 128 shared positions and the row sum
  starts from the float zero, which is the real zero; so entry (r, j) is the layer's formula on row r.
-/
import proofs.«181464_j3624952398755_1_alg».proof.Proof.Gen.ReferenceIdeal.Read
import proofs.«181464_j3624952398755_1_alg».proof.Proof.SageSpec
import Idealize.ShloMosaic.PureOps.Ideal.Laws
import Idealize.ShloMosaic.Lib.ValueIdx
import Idealize.ShloMosaic.Lib.Pipeline.Value

noncomputable section

namespace Cert.ReferenceIdeal.Layers

open Cert.ReferenceIdeal Cert.ReferenceIdeal.Gen Idealize.ShloMosaic Idealize.ShloMosaic.ValueIdx Cert.Spec

/-! ## The two matrix products of the whole array -/

/-- Output row of the left operand's index. -/
theorem lhs0_sq (i : S100000x128.Idx) (q : dot_S100000x128_S128x128_S100000x128_1_0_0_1_n_n.contr.Idx) : (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
/-- The left operand's column is the summation index. -/
theorem lhs1_sq (i : S100000x128.Idx) (q : dot_S100000x128_S128x128_S100000x128_1_0_0_1_n_n.contr.Idx) : (dot_S100000x128_S128x128_S100000x128_1_0_0_1_n_n.lhsIdx i q 1).val = (q ⟨0, by decide⟩).val :=
  dot_S100000x128_S128x128_S100000x128_1_0_0_1_n_n.lhsIdx_val_of_single rfl i q
/-- The right operand's row is the summation index. -/
theorem rhs0_sq (i : S100000x128.Idx) (q : dot_S100000x128_S128x128_S100000x128_1_0_0_1_n_n.contr.Idx) : (dot_S100000x128_S128x128_S100000x128_1_0_0_1_n_n.rhsIdx i q 0).val = (q ⟨0, by decide⟩).val :=
  dot_S100000x128_S128x128_S100000x128_1_0_0_1_n_n.rhsIdx_val_of_single rfl i q
/-- Output column of the right operand's index. -/
theorem rhs1_sq (i : S100000x128.Idx) (q : dot_S100000x128_S128x128_S100000x128_1_0_0_1_n_n.contr.Idx) : (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The contraction of an 100000 × 128 by a 128 × 128 array at (p, j): the sum over q of left (p, q) times right (q, j). -/
theorem contr_sq (l : S100000x128.Idx → EReal) (r : S128x128.Idx → EReal) (p : Fin 100000) (j : Fin 128) :
    (∑ k : dot_S100000x128_S128x128_S100000x128_1_0_0_1_n_n.contr.Idx, l (dot_S100000x128_S128x128_S100000x128_1_0_0_1_n_n.lhsIdx (ix2 p j) k) * r (dot_S100000x128_S128x128_S100000x128_1_0_0_1_n_n.rhsIdx (ix2 p j) k))
      = ∑ q : Fin 128, l (ix2 p q) * r (ix2 q j) := by
  rw [← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 p j) ((ValueIdx.contrEquiv1 dot_S100000x128_S128x128_S100000x128_1_0_0_1_n_n 128 rfl rfl).symm k) = ix2 p k := funext fun a => Fin.ext (by
    match a with
    | ⟨0, _⟩ => exact lhs0_sq _ _
    | ⟨1, _⟩ => exact (lhs1_sq _ _).trans hk)
  have er : dot_S100000x128_S128x128_S100000x128_1_0_0_1_n_n.rhsIdx (ix2 p j) ((ValueIdx.contrEquiv1 dot_S100000x128_S128x128_S100000x128_1_0_0_1_n_n 128 rfl rfl).symm k) = ix2 k j := funext fun a => Fin.ext (by
    match a with
    | ⟨0, _⟩ => exact (rhs0_sq _ _).trans hk
    | ⟨1, _⟩ => exact rhs1_sq _ _)
  rw [el, er]

/-- Output row of the left operand's index. -/
theorem lhs0_out (i : S100000x2.Idx) (q : dot_S100000x128_S128x2_S100000x2_1_0_0_1_n_n.contr.Idx) : (dot_S100000x128_S128x2_S100000x2_1_0_0_1_n_n.lhsIdx i q 0).val = (i 0).val := by
  unfold DotDims.lhsIdx
  rw [dif_neg (show ¬(0 : Fin S100000x128.rank) ∈ dot_S100000x128_S128x2_S100000x2_1_0_0_1_n_n.lhsBatch by decide), dif_pos (show (0 : Fin S100000x128.rank) ∈ dot_S100000x128_S128x2_S100000x2_1_0_0_1_n_n.lhsNonContracting by decide)]
  rfl
/-- The left operand's column is the summation index. -/
theorem lhs1_out (i : S100000x2.Idx) (q : dot_S100000x128_S128x2_S100000x2_1_0_0_1_n_n.contr.Idx) : (dot_S100000x128_S128x2_S100000x2_1_0_0_1_n_n.lhsIdx i q 1).val = (q ⟨0, by decide⟩).val :=
  dot_S100000x128_S128x2_S100000x2_1_0_0_1_n_n.lhsIdx_val_of_single rfl i q
/-- The right operand's row is the summation index. -/
theorem rhs0_out (i : S100000x2.Idx) (q : dot_S100000x128_S128x2_S100000x2_1_0_0_1_n_n.contr.Idx) : (dot_S100000x128_S128x2_S100000x2_1_0_0_1_n_n.rhsIdx i q 0).val = (q ⟨0, by decide⟩).val :=
  dot_S100000x128_S128x2_S100000x2_1_0_0_1_n_n.rhsIdx_val_of_single rfl i q
/-- Output column of the right operand's index. -/
theorem rhs1_out (i : S100000x2.Idx) (q : dot_S100000x128_S128x2_S100000x2_1_0_0_1_n_n.contr.Idx) : (dot_S100000x128_S128x2_S100000x2_1_0_0_1_n_n.rhsIdx i q 1).val = (i 1).val := by
  unfold DotDims.rhsIdx
  rw [dif_neg (show ¬(1 : Fin S128x2.rank) ∈ dot_S100000x128_S128x2_S100000x2_1_0_0_1_n_n.rhsBatch by decide), dif_pos (show (1 : Fin S128x2.rank) ∈ dot_S100000x128_S128x2_S100000x2_1_0_0_1_n_n.rhsNonContracting by decide)]
  rfl

/-- The contraction of an 100000 × 128 by a 128 × 2 array at (p, j): the sum over q of left (p, q) times right (q, j). -/
theorem contr_out (l : S100000x128.Idx → EReal) (r : S128x2.Idx → EReal) (p : Fin 100000) (j : Fin 2) :
    (∑ k : dot_S100000x128_S128x2_S100000x2_1_0_0_1_n_n.contr.Idx, l (dot_S100000x128_S128x2_S100000x2_1_0_0_1_n_n.lhsIdx (ix2 p j) k) * r (dot_S100000x128_S128x2_S100000x2_1_0_0_1_n_n.rhsIdx (ix2 p j) k))
      = ∑ q : Fin 128, l (ix2 p q) * r (ix2 q j) := by
  rw [← Equiv.sum_comp (ValueIdx.contrEquiv1 dot_S100000x128_S128x2_S100000x2_1_0_0_1_n_n 128 rfl rfl).symm]
  refine Finset.sum_congr rfl fun k _ => ?_
  have hk := ValueIdx.contrEquiv1_symm_val dot_S100000x128_S128x2_S100000x2_1_0_0_1_n_n 128 rfl rfl k
  have el : dot_S100000x128_S128x2_S100000x2_1_0_0_1_n_n.lhsIdx (ix2 p j) ((ValueIdx.contrEquiv1 dot_S100000x128_S128x2_S100000x2_1_0_0_1_n_n 128 rfl rfl).symm k) = ix2 p k := funext fun a => Fin.ext (by
    match a with
    | ⟨0, _⟩ => exact lhs0_out _ _
    | ⟨1, _⟩ => exact (lhs1_out _ _).trans hk)
  have er : dot_S100000x128_S128x2_S100000x2_1_0_0_1_n_n.rhsIdx (ix2 p j) ((ValueIdx.contrEquiv1 dot_S100000x128_S128x2_S100000x2_1_0_0_1_n_n 128 rfl rfl).symm k) = ix2 k j := funext fun a => Fin.ext (by
    match a with
    | ⟨0, _⟩ => exact (rhs0_out _ _).trans hk
    | ⟨1, _⟩ => exact rhs1_out _ _)
  rw [el, er]

theorem dot_sq_apply (l : FVec Ideal S100000x128 .f32) (r : FVec Ideal S128x128 .f32) (p : Fin 100000) (j : Fin 128) :
    Host.dotGeneral dot_S100000x128_S128x128_S100000x128_1_0_0_1_n_n none l r (ix2 p j) = ∑ q : Fin 128, l (ix2 p q) * r (ix2 q j) :=
  (Ideal.dotGeneral_apply dot_S100000x128_S128x128_S100000x128_1_0_0_1_n_n none .single l r (ix2 p j)).trans (contr_sq l r p j)

theorem dot_out_apply (l : FVec Ideal S100000x128 .f32) (r : FVec Ideal S128x2 .f32) (p : Fin 100000) (j : Fin 2) :
    Host.dotGeneral dot_S100000x128_S128x2_S100000x2_1_0_0_1_n_n none l r (ix2 p j) = ∑ q : Fin 128, l (ix2 p q) * r (ix2 q j) :=
  (Ideal.dotGeneral_apply dot_S100000x128_S128x2_S100000x2_1_0_0_1_n_n none .single l r (ix2 p j)).trans (contr_out l r p j)

/-! ## Repeating a row, a column or a number over the array -/

/-- A length-128 vector as a 1 × 128 row repeated down the array, at (r, j): the vector at j. -/
theorem rowBcast_apply (b : FVec Ideal S128 .f32) (r : Fin 100000) (j : Fin 128) :
    broadcastInDim S100000x128 ![0, 1] bcast_S1x128_S100000x128_0_1 (broadcastInDim S1x128 ![1] bcast_S128_S1x128_1 b) (ix2 r j) = b (ix1 j) := by
  refine (broadcastInDim_apply _ bcast_S1x128_S100000x128_0_1 _ (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])).trans ?_
  exact broadcastInDim_apply _ bcast_S128_S1x128_1 b (ix2 (0 : Fin 1) j) (ix1 j) (fun a => match a with
    | ⟨0, _⟩ => by show j.val = if (128 : Nat) = 1 then 0 else j.val; rw [if_neg (by decide)])

/-- A length-2 vector as a 1 × 2 row repeated down the array, at (r, j): the vector at j. -/
theorem rowBcast2_apply (b : FVec Ideal S2 .f32) (r : Fin 100000) (j : Fin 2) :
    broadcastInDim S100000x2 ![0, 1] bcast_S1x2_S100000x2_0_1 (broadcastInDim S1x2 ![1] bcast_S2_S1x2_1 b) (ix2 r j) = b (ix1 j) := by
  refine (broadcastInDim_apply _ bcast_S1x2_S100000x2_0_1 _ (ix2 r j) (ix2 (0 : Fin 1) j) (fun a => match a with
    | ⟨0, _⟩ => by show 0 = if (1 : Nat) = 1 then 0 else r.val; rw [if_pos rfl]
    | ⟨1, _⟩ => by show j.val = if (2 : Nat) = 1 then 0 else j.val; rw [if_neg (by decide)])).trans ?_
  exact broadcastInDim_apply _ bcast_S2_S1x2_1 b (ix2 (0 : Fin 1) j) (ix1 j) (fun a => match a with
    | ⟨0, _⟩ => by show j.val = if (2 : Nat) = 1 then 0 else j.val; rw [if_neg (by decide)])

/-- A 100000 × 1 column repeated along the rows, at (r, j): the column at (r, 0). -/
theorem colBcast_apply (v : FVec Ideal S100000x1 .f32) (r : Fin 100000) (j : Fin 128) :
    broadcastInDim S100000x128 ![0, 1] bcast_S100000x1_S100000x128_0_1 v (ix2 r j) = v (ix2 r (0 : Fin 1)) :=
  broadcastInDim_apply _ bcast_S100000x1_S100000x128_0_1 v (ix2 r j) (ix2 r (0 : Fin 1)) (fun a => match a with
    | ⟨0, _⟩ => by show r.val = if (100000 : Nat) = 1 then 0 else r.val; rw [if_neg (by decide)]
    | ⟨1, _⟩ => by show 0 = if (1 : Nat) = 1 then 0 else j.val; rw [if_pos rfl])

/-- A length-100000 vector as a column, at (r, 0): the vector at r. -/
theorem asCol_apply (v : FVec Ideal S100000 .f32) (r : Fin 100000) :
    broadcastInDim S100000x1 ![0] bcast_S100000_S100000x1_0 v (ix2 r (0 : Fin 1)) = v (ix1 r) :=
  broadcastInDim_apply _ bcast_S100000_S100000x1_0 v (ix2 r (0 : Fin 1)) (ix1 r) (fun a => match a with
    | ⟨0, _⟩ => by show r.val = if (100000 : Nat) = 1 then 0 else r.val; rw [if_neg (by decide)])

/-- The row sums of an array from the float zero, at r: the plain sum of row r. -/
theorem rowSum_apply (y : FVec Ideal S100000x128 .f32) (r : Fin 100000) :
    Host.reduceAdd y (constant (F := Ideal) S_ .f32 0x00000000#32) reducesTo_S100000x128_S100000_d1 h_S_ (ix1 r) = ∑ q : Fin 128, y (ix2 r q) := by
  simp only [Host.reduceAdd, Ideal.hostReduceAdd_def]
  rw [Ideal.hostReduceAdd_single reducesTo_S100000x128_S100000_d1 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl))

/-! ## A layer -/

/-- The pre-activation of the whole array: (mean · wl + b) + x · wr. -/
def preH (mean x : FVec Ideal S100000x128 .f32) (wl wr : FVec Ideal S128x128 .f32) (b : FVec Ideal S128 .f32) : FVec Ideal S100000x128 .f32 :=
  addf (addf (Host.dotGeneral dot_S100000x128_S128x128_S100000x128_1_0_0_1_n_n none mean wl)
      (broadcastInDim S100000x128 ![0, 1] bcast_S1x128_S100000x128_0_1 (broadcastInDim S1x128 ![1] bcast_S128_S1x128_1 b)))
    (Host.dotGeneral dot_S100000x128_S128x128_S100000x128_1_0_0_1_n_n none x wr)

theorem preH_apply (mean x : FVec Ideal S100000x128 .f32) (wl wr : FVec Ideal S128x128 .f32) (b : FVec Ideal S128 .f32) (r : Fin 100000) (j : Fin 128) :
    preH mean x wl wr b (ix2 r j) = preAt mean x wl wr b r j := by
  unfold preH preAt affine
  show (Host.dotGeneral dot_S100000x128_S128x128_S100000x128_1_0_0_1_n_n none mean wl (ix2 r j)
      + broadcastInDim S100000x128 ![0, 1] bcast_S1x128_S100000x128_0_1 (broadcastInDim S1x128 ![1] bcast_S128_S1x128_1 b) (ix2 r j))
    + Host.dotGeneral dot_S100000x128_S128x128_S100000x128_1_0_0_1_n_n none x wr (ix2 r j) = _
  rw [dot_sq_apply, dot_sq_apply, rowBcast_apply]

/-- Every row divided by its clamped length, negative entries clipped. -/
def normH (s : FVec Ideal S100000x128 .f32) : FVec Ideal S100000x128 .f32 :=
  maximumf (Host.divf s (broadcastInDim S100000x128 ![0, 1] bcast_S100000x1_S100000x128_0_1
      (maximumf (Host.sqrt (broadcastInDim S100000x1 ![0] bcast_S100000_S100000x1_0
          (Host.reduceAdd (mulf s s) (constant (F := Ideal) S_ .f32 0x00000000#32) reducesTo_S100000x128_S100000_d1 h_S_)))
        (broadcastInDim S100000x1 ![] bcast_S_S100000x1 (constant (F := Ideal) S_ .f32 0x2B8CBCCC#32)))))
    (broadcastInDim S100000x128 ![] bcast_S_S100000x128 (constant (F := Ideal) S_ .f32 0x00000000#32))

/-- The host's division, square root and sum act entry by entry. -/
theorem hostDivf_apply {s : Shape} (a b : FVec Ideal s .f32) (i : s.Idx) : Host.divf a b i = Ideal.div (a i) (b i) := rfl
theorem hostSqrt_apply {s : Shape} (a : FVec Ideal s .f32) (i : s.Idx) : Host.sqrt a i = Ideal.sqrt (a i) := rfl

/-- The float zero repeated over the array, at any entry. -/
theorem zeroBcast_apply (r : Fin 100000) (j : Fin 128) :
    broadcastInDim S100000x128 ![] bcast_S_S100000x128 (constant (F := Ideal) S_ .f32 0x00000000#32) (ix2 r j) = zeroW :=
  broadcastInDim_apply _ bcast_S_S100000x128 _ (ix2 r j) ix0 (fun a => a.elim0)

/-- The clamp repeated down a column, at any entry. -/
theorem epsBcast_apply (r : Fin 100000) :
    broadcastInDim S100000x1 ![] bcast_S_S100000x1 (constant (F := Ideal) S_ .f32 0x2B8CBCCC#32) (ix2 r (0 : Fin 1)) = epsW :=
  broadcastInDim_apply _ bcast_S_S100000x1 _ (ix2 r (0 : Fin 1)) ix0 (fun a => a.elim0)

/-- The clamped length of row r, repeated along the row. -/
theorem lenBcast_apply (s : FVec Ideal S100000x128 .f32) (r : Fin 100000) (j : Fin 128) :
    broadcastInDim S100000x128 ![0, 1] bcast_S100000x1_S100000x128_0_1
      (maximumf (Host.sqrt (broadcastInDim S100000x1 ![0] bcast_S100000_S100000x1_0 (Host.reduceAdd (mulf s s) (constant (F := Ideal) S_ .f32 0x00000000#32) reducesTo_S100000x128_S100000_d1 h_S_)))
        (broadcastInDim S100000x1 ![] bcast_S_S100000x1 (constant (F := Ideal) S_ .f32 0x2B8CBCCC#32))) (ix2 r j)
      = max (Ideal.sqrt (∑ q : Fin 128, s (ix2 r q) * s (ix2 r q))) epsW := by
  have hS : broadcastInDim S100000x1 ![0] bcast_S100000_S100000x1_0 (Host.reduceAdd (mulf s s) (constant (F := Ideal) S_ .f32 0x00000000#32) reducesTo_S100000x128_S100000_d1 h_S_) (ix2 r (0 : Fin 1))
      = ∑ q : Fin 128, s (ix2 r q) * s (ix2 r q) := (asCol_apply _ r).trans (rowSum_apply _ r)
  rw [colBcast_apply, maximumf_apply, hostSqrt_apply, hS, epsBcast_apply]

theorem normH_apply (s : FVec Ideal S100000x128 .f32) (r : Fin 100000) (j : Fin 128) :
    normH s (ix2 r j) = normReluAt (fun q => s (ix2 r q)) j := by
  unfold normH normReluAt
  rw [maximumf_apply, hostDivf_apply, lenBcast_apply, zeroBcast_apply]

/-- The reference's layer at (r, j) is the layer's formula on row r. -/
theorem sageH_apply (mean x : FVec Ideal S100000x128 .f32) (wl wr : FVec Ideal S128x128 .f32) (b : FVec Ideal S128 .f32) (r : Fin 100000) (j : Fin 128) :
    normH (preH mean x wl wr b) (ix2 r j) = sageAt mean x wl wr b r j := by
  rw [normH_apply]
  unfold sageAt
  exact congrArg (normReluAt · j) (funext fun q => preH_apply mean x wl wr b r q)

/-! ## The head -/

/-- The head on the whole array: max (x · w1 + b1, 0) · w2 + b2. -/
def mlpH (x : FVec Ideal S100000x128 .f32) (w1 : FVec Ideal S128x128 .f32) (b1 : FVec Ideal S128 .f32) (w2 : FVec Ideal S128x2 .f32) (b2 : FVec Ideal S2 .f32) : FVec Ideal S100000x2 .f32 :=
  addf (Host.dotGeneral dot_S100000x128_S128x2_S100000x2_1_0_0_1_n_n none
      (maximumf (addf (Host.dotGeneral dot_S100000x128_S128x128_S100000x128_1_0_0_1_n_n none x w1)
          (broadcastInDim S100000x128 ![0, 1] bcast_S1x128_S100000x128_0_1 (broadcastInDim S1x128 ![1] bcast_S128_S1x128_1 b1)))
        (broadcastInDim S100000x128 ![] bcast_S_S100000x128 (constant (F := Ideal) S_ .f32 0x00000000#32)))
      w2)
    (broadcastInDim S100000x2 ![0, 1] bcast_S1x2_S100000x2_0_1 (broadcastInDim S1x2 ![1] bcast_S2_S1x2_1 b2))

theorem mlpH_apply (x : FVec Ideal S100000x128 .f32) (w1 : FVec Ideal S128x128 .f32) (b1 : FVec Ideal S128 .f32) (w2 : FVec Ideal S128x2 .f32) (b2 : FVec Ideal S2 .f32)
    (r : Fin 100000) (j : Fin 2) : mlpH x w1 b1 w2 b2 (ix2 r j) = mlpAt x w1 b1 w2 b2 r j := by
  unfold mlpH mlpAt
  show Host.dotGeneral dot_S100000x128_S128x2_S100000x2_1_0_0_1_n_n none _ w2 (ix2 r j)
    + broadcastInDim S100000x2 ![0, 1] bcast_S1x2_S100000x2_0_1 (broadcastInDim S1x2 ![1] bcast_S2_S1x2_1 b2) (ix2 r j) = _
  rw [dot_out_apply, rowBcast2_apply]
  refine congrArg (· + b2 (ix1 j)) (Finset.sum_congr rfl fun q _ => ?_)
  refine congrArg (· * w2 (ix2 q j)) ?_
  show max (Host.dotGeneral dot_S100000x128_S128x128_S100000x128_1_0_0_1_n_n none x w1 (ix2 r q)
    + broadcastInDim S100000x128 ![0, 1] bcast_S1x128_S100000x128_0_1 (broadcastInDim S1x128 ![1] bcast_S128_S1x128_1 b1) (ix2 r q))
    (broadcastInDim S100000x128 ![] bcast_S_S100000x128 (constant (F := Ideal) S_ .f32 0x00000000#32) (ix2 r q)) = _
  rw [dot_sq_apply, rowBcast_apply, zeroBcast_apply]
  rfl

end Cert.ReferenceIdeal.Layers

end
-- ==== Proof.RefStages.lean ====
/-
  The reference program, layer by layer.

  Its three layers and its head are, as whole arrays, the layer's and the head's functions of the previous stage:
  each stage's host operations are literally the layer's composition, and that composition is the entry-by-entry
  formula.
-/
import proofs.«181464_j3624952398755_1_alg».proof.Proof.RefLayers

set_option maxRecDepth 16384

noncomputable section

namespace Cert.ReferenceIdeal.Stages

open Cert.ReferenceIdeal Cert.ReferenceIdeal.Gen Cert.ReferenceIdeal.Read Cert.ReferenceIdeal.Layers Idealize.ShloMosaic Idealize.ShloMosaic.ValueIdx Cert.Spec

/-- The layer's host composition is the layer's output array. -/
theorem layer_arr (mean x : FVec Ideal S100000x128 .f32) (wl wr : FVec Ideal S128x128 .f32) (b : FVec Ideal S128 .f32) :
    normH (preH mean x wl wr b) = sageArr (n := 100000) mean x wl wr b :=
  eq_sageArr _ _ _ _ _ _ (sageH_apply mean x wl wr b)

/-- The head's host composition is the head's output array. -/
theorem head_arr (x : FVec Ideal S100000x128 .f32) (w1 : FVec Ideal S128x128 .f32) (b1 : FVec Ideal S128 .f32) (w2 : FVec Ideal S128x2 .f32) (b2 : FVec Ideal S2 .f32) :
    mlpH x w1 b1 w2 b2 = mlpArr (n := 100000) x w1 b1 w2 b2 :=
  eq_mlpArr _ _ _ _ _ _ (mlpH_apply x w1 b1 w2 b2)

variable (x0 : (⟨S100000x128, .f32⟩ : BufTy).Contents (Elt Ideal)) (x1 : (⟨S2x1600000, .i32⟩ : BufTy).Contents (Elt Ideal))
  (x2 : (⟨S3x128x128, .f32⟩ : BufTy).Contents (Elt Ideal)) (x3 : (⟨S3x128, .f32⟩ : BufTy).Contents (Elt Ideal))
  (x4 : (⟨S3x128x128, .f32⟩ : BufTy).Contents (Elt Ideal)) (x5 : (⟨S128x128, .f32⟩ : BufTy).Contents (Elt Ideal))
  (x6 : (⟨S128, .f32⟩ : BufTy).Contents (Elt Ideal)) (x7 : (⟨S2x128, .f32⟩ : BufTy).Contents (Elt Ideal))
  (x8 : (⟨S2, .f32⟩ : BufTy).Contents (Elt Ideal))

/-- The first layer's output: the layer on the aggregated input features and the input features. -/
theorem stage1 : val_main_v44 (F := Ideal) x0 x1 x2 x3 x4
    = sageArr (n := 100000) (val_main_v24 (F := Ideal) x0 x1) x0 (val_main_v27 (F := Ideal) x2) (val_main_v36 (F := Ideal) x4) (val_main_v30 (F := Ideal) x3) :=
  (show val_main_v44 (F := Ideal) x0 x1 x2 x3 x4
      = normH (preH (val_main_v24 (F := Ideal) x0 x1) x0 (val_main_v27 (F := Ideal) x2) (val_main_v36 (F := Ideal) x4) (val_main_v30 (F := Ideal) x3)) from rfl).trans
    (layer_arr _ _ _ _ _)

/-- The second layer's output: the layer on the first's, aggregated and plain. -/
theorem stage2 : val_main_v76 (F := Ideal) x0 x1 x2 x3 x4
    = sageArr (n := 100000) (val_main_v56 (F := Ideal) x0 x1 x2 x3 x4) (val_main_v44 (F := Ideal) x0 x1 x2 x3 x4) (val_main_v59 (F := Ideal) x2) (val_main_v68 (F := Ideal) x4) (val_main_v62 (F := Ideal) x3) :=
  (show val_main_v76 (F := Ideal) x0 x1 x2 x3 x4
      = normH (preH (val_main_v56 (F := Ideal) x0 x1 x2 x3 x4) (val_main_v44 (F := Ideal) x0 x1 x2 x3 x4) (val_main_v59 (F := Ideal) x2) (val_main_v68 (F := Ideal) x4) (val_main_v62 (F := Ideal) x3)) from rfl).trans
    (layer_arr _ _ _ _ _)

/-- The third layer's output: the layer on the second's, aggregated and plain. -/
theorem stage3 : val_main_v108 (F := Ideal) x0 x1 x2 x3 x4
    = sageArr (n := 100000) (val_main_v88 (F := Ideal) x0 x1 x2 x3 x4) (val_main_v76 (F := Ideal) x0 x1 x2 x3 x4) (val_main_v91 (F := Ideal) x2) (val_main_v100 (F := Ideal) x4) (val_main_v94 (F := Ideal) x3) :=
  (show val_main_v108 (F := Ideal) x0 x1 x2 x3 x4
      = normH (preH (val_main_v88 (F := Ideal) x0 x1 x2 x3 x4) (val_main_v76 (F := Ideal) x0 x1 x2 x3 x4) (val_main_v91 (F := Ideal) x2) (val_main_v100 (F := Ideal) x4) (val_main_v94 (F := Ideal) x3)) from rfl).trans
    (layer_arr _ _ _ _ _)

/-- The result: the head on the third layer's output. -/
theorem stage4 : val_main_v119 (F := Ideal) x0 x1 x2 x3 x4 x5 x6 x7 x8
    = mlpArr (n := 100000) (val_main_v108 (F := Ideal) x0 x1 x2 x3 x4) (val_main_v109 (F := Ideal) x5) x6 (val_main_v115 (F := Ideal) x7) x8 :=
  (show val_main_v119 (F := Ideal) x0 x1 x2 x3 x4 x5 x6 x7 x8
      = mlpH (val_main_v108 (F := Ideal) x0 x1 x2 x3 x4) (val_main_v109 (F := Ideal) x5) x6 (val_main_v115 (F := Ideal) x7) x8 from rfl).trans
    (head_arr _ _ _ _ _)

end Cert.ReferenceIdeal.Stages

end
-- ==== Proof.Fold1.lean ====
/-
  The kernel program's buffer contents at its segment boundaries 1 and 2, as the reference's stages.

  A stretch of host operations writes each of its results as its operation of earlier buffers and leaves every other
  buffer alone; a launch rewrites its output array to the layer's output on the arrays it finds and leaves every other
  buffer alone. The kernel program's host operations between launches are the reference's own (the neighbour
  aggregation, the degree reciprocal, the slices and transposes of the weights), so buffer by buffer the contents are
  the reference's stages of the launch arguments.
-/
import proofs.«181464_j3624952398755_1_alg».proof.Proof.KernelRegions
import proofs.«181464_j3624952398755_1_alg».proof.Proof.RefStages
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.ShloMosaic.StableHlo Cert.Spec
open Idealize.SL Idealize.SL.Sem

variable (m : (ℓ : Loc nD τ sig) → Buf (Elt Ideal) ℓ) (ρ : Dev nD → PrngReg) (c : Dev nD)

/-- Argument 0 as launched. -/
abbrev X0 (m : (ℓ : Loc nD τ sig) → Buf (Elt Ideal) ℓ) (c : Dev nD) : (⟨S100000x128, .f32⟩ : BufTy).Contents (Elt Ideal) := m ((c : Thread nD τ).loc main_arg0)
/-- Argument 1 as launched. -/
abbrev X1 (m : (ℓ : Loc nD τ sig) → Buf (Elt Ideal) ℓ) (c : Dev nD) : (⟨S2x1600000, .i32⟩ : BufTy).Contents (Elt Ideal) := m ((c : Thread nD τ).loc main_arg1)
/-- Argument 2 as launched. -/
abbrev X2 (m : (ℓ : Loc nD τ sig) → Buf (Elt Ideal) ℓ) (c : Dev nD) : (⟨S3x128x128, .f32⟩ : BufTy).Contents (Elt Ideal) := m ((c : Thread nD τ).loc main_arg2)
/-- Argument 3 as launched. -/
abbrev X3 (m : (ℓ : Loc nD τ sig) → Buf (Elt Ideal) ℓ) (c : Dev nD) : (⟨S3x128, .f32⟩ : BufTy).Contents (Elt Ideal) := m ((c : Thread nD τ).loc main_arg3)
/-- Argument 4 as launched. -/
abbrev X4 (m : (ℓ : Loc nD τ sig) → Buf (Elt Ideal) ℓ) (c : Dev nD) : (⟨S3x128x128, .f32⟩ : BufTy).Contents (Elt Ideal) := m ((c : Thread nD τ).loc main_arg4)
/-- Argument 5 as launched. -/
abbrev X5 (m : (ℓ : Loc nD τ sig) → Buf (Elt Ideal) ℓ) (c : Dev nD) : (⟨S128x128, .f32⟩ : BufTy).Contents (Elt Ideal) := m ((c : Thread nD τ).loc main_arg5)
/-- Argument 6 as launched. -/
abbrev X6 (m : (ℓ : Loc nD τ sig) → Buf (Elt Ideal) ℓ) (c : Dev nD) : (⟨S128, .f32⟩ : BufTy).Contents (Elt Ideal) := m ((c : Thread nD τ).loc main_arg6)
/-- Argument 7 as launched. -/
abbrev X7 (m : (ℓ : Loc nD τ sig) → Buf (Elt Ideal) ℓ) (c : Dev nD) : (⟨S2x128, .f32⟩ : BufTy).Contents (Elt Ideal) := m ((c : Thread nD τ).loc main_arg7)
/-- Argument 8 as launched. -/
abbrev X8 (m : (ℓ : Loc nD τ sig) → Buf (Elt Ideal) ℓ) (c : Dev nD) : (⟨S2, .f32⟩ : BufTy).Contents (Elt Ideal) := m ((c : Thread nD τ).loc main_arg8)

/-! ## Boundary 1 -/

theorem f1_v1 : W1 m ρ c (Proc.devRef .tc main_v1) = Cert.ReferenceIdeal.Read.val_main_v1 (F := Ideal) (X1 m c) := by
  show StableHlo.after hostOps0 (W0 m ρ c) (Proc.devRef .tc main_v1) = _
  simp only [hostOps0]
  after_results_simp
  all_goals rfl

theorem f1_v3 : W1 m ρ c (Proc.devRef .tc main_v3) = Cert.ReferenceIdeal.Read.val_main_v3 (F := Ideal) (X1 m c) := by
  show StableHlo.after hostOps0 (W0 m ρ c) (Proc.devRef .tc main_v3) = _
  simp only [hostOps0]
  after_results_simp
  all_goals rfl

theorem f1_v12 : W1 m ρ c (Proc.devRef .tc main_v12) = Cert.ReferenceIdeal.Read.val_main_v12 (F := Ideal) (X1 m c) := by
  show StableHlo.after hostOps0 (W0 m ρ c) (Proc.devRef .tc main_v12) = _
  simp only [hostOps0]
  after_results_simp
  all_goals rfl

theorem f1_v24 : W1 m ρ c (Proc.devRef .tc main_v24) = Cert.ReferenceIdeal.Read.val_main_v24 (F := Ideal) (X0 m c) (X1 m c) := by
  show StableHlo.after hostOps0 (W0 m ρ c) (Proc.devRef .tc main_v24) = _
  simp only [hostOps0]
  after_results_simp
  all_goals rfl

theorem f1_v27 : W1 m ρ c (Proc.devRef .tc main_v27) = Cert.ReferenceIdeal.Read.val_main_v27 (F := Ideal) (X2 m c) := by
  show StableHlo.after hostOps0 (W0 m ρ c) (Proc.devRef .tc main_v27) = _
  simp only [hostOps0]
  after_results_simp
  all_goals rfl

theorem f1_v30 : W1 m ρ c (Proc.devRef .tc main_v30) = Cert.ReferenceIdeal.Read.val_main_v36 (F := Ideal) (X4 m c) := by
  show StableHlo.after hostOps0 (W0 m ρ c) (Proc.devRef .tc main_v30) = _
  simp only [hostOps0]
  after_results_simp
  all_goals rfl

theorem f1_v32 : W1 m ρ c (Proc.devRef .tc main_v32) = Cert.ReferenceIdeal.Read.val_main_v30 (F := Ideal) (X3 m c) := by
  show StableHlo.after hostOps0 (W0 m ρ c) (Proc.devRef .tc main_v32) = _
  simp only [hostOps0]
  after_results_simp
  all_goals rfl

theorem f1_arg0 : W1 m ρ c (Proc.devRef .tc main_arg0) = X0 m c := by
  show StableHlo.after hostOps0 (W0 m ρ c) (Proc.devRef .tc main_arg0) = _
  simp only [hostOps0]
  after_results_simp
  all_goals rfl

theorem f1_arg2 : W1 m ρ c (Proc.devRef .tc main_arg2) = X2 m c := by
  show StableHlo.after hostOps0 (W0 m ρ c) (Proc.devRef .tc main_arg2) = _
  simp only [hostOps0]
  after_results_simp
  all_goals rfl

theorem f1_arg3 : W1 m ρ c (Proc.devRef .tc main_arg3) = X3 m c := by
  show StableHlo.after hostOps0 (W0 m ρ c) (Proc.devRef .tc main_arg3) = _
  simp only [hostOps0]
  after_results_simp
  all_goals rfl

theorem f1_arg4 : W1 m ρ c (Proc.devRef .tc main_arg4) = X4 m c := by
  show StableHlo.after hostOps0 (W0 m ρ c) (Proc.devRef .tc main_arg4) = _
  simp only [hostOps0]
  after_results_simp
  all_goals rfl

theorem f1_arg5 : W1 m ρ c (Proc.devRef .tc main_arg5) = X5 m c := by
  show StableHlo.after hostOps0 (W0 m ρ c) (Proc.devRef .tc main_arg5) = _
  simp only [hostOps0]
  after_results_simp
  all_goals rfl

theorem f1_arg6 : W1 m ρ c (Proc.devRef .tc main_arg6) = X6 m c := by
  show StableHlo.after hostOps0 (W0 m ρ c) (Proc.devRef .tc main_arg6) = _
  simp only [hostOps0]
  after_results_simp
  all_goals rfl

theorem f1_arg7 : W1 m ρ c (Proc.devRef .tc main_arg7) = X7 m c := by
  show StableHlo.after hostOps0 (W0 m ρ c) (Proc.devRef .tc main_arg7) = _
  simp only [hostOps0]
  after_results_simp
  all_goals rfl

theorem f1_arg8 : W1 m ρ c (Proc.devRef .tc main_arg8) = X8 m c := by
  show StableHlo.after hostOps0 (W0 m ρ c) (Proc.devRef .tc main_arg8) = _
  simp only [hostOps0]
  after_results_simp
  all_goals rfl

/-! ## Boundary 2 -/

theorem f2_v33 : W2 m ρ c (Proc.devRef .tc main_v33) = Cert.ReferenceIdeal.Read.val_main_v44 (F := Ideal) (X0 m c) (X1 m c) (X2 m c) (X3 m c) (X4 m c) := by
  refine (W2_arr m ρ c 5).trans ((Cert.KernelIdeal.Regions.region0 (V1 m ρ) c).trans ?_)
  show sageArr (n := 100000) (W1 m ρ c (Proc.devRef .tc main_v24)) (W1 m ρ c (Proc.devRef .tc main_arg0)) (W1 m ρ c (Proc.devRef .tc main_v27)) (W1 m ρ c (Proc.devRef .tc main_v30)) (W1 m ρ c (Proc.devRef .tc main_v32)) = _
  rw [f1_v24 m ρ c, f1_arg0 m ρ c, f1_v27 m ρ c, f1_v32 m ρ c, f1_v30 m ρ c]
  exact (Cert.ReferenceIdeal.Stages.stage1 _ _ _ _ _).symm

theorem f2_v1 : W2 m ρ c (Proc.devRef .tc main_v1) = Cert.ReferenceIdeal.Read.val_main_v1 (F := Ideal) (X1 m c) :=
  (W2_of_ne m ρ c main_v1 (by decide)).trans (f1_v1 m ρ c)

theorem f2_v3 : W2 m ρ c (Proc.devRef .tc main_v3) = Cert.ReferenceIdeal.Read.val_main_v3 (F := Ideal) (X1 m c) :=
  (W2_of_ne m ρ c main_v3 (by decide)).trans (f1_v3 m ρ c)

theorem f2_v12 : W2 m ρ c (Proc.devRef .tc main_v12) = Cert.ReferenceIdeal.Read.val_main_v12 (F := Ideal) (X1 m c) :=
  (W2_of_ne m ρ c main_v12 (by decide)).trans (f1_v12 m ρ c)

theorem f2_arg2 : W2 m ρ c (Proc.devRef .tc main_arg2) = X2 m c :=
  (W2_of_ne m ρ c main_arg2 (by decide)).trans (f1_arg2 m ρ c)

theorem f2_arg3 : W2 m ρ c (Proc.devRef .tc main_arg3) = X3 m c :=
  (W2_of_ne m ρ c main_arg3 (by decide)).trans (f1_arg3 m ρ c)

theorem f2_arg4 : W2 m ρ c (Proc.devRef .tc main_arg4) = X4 m c :=
  (W2_of_ne m ρ c main_arg4 (by decide)).trans (f1_arg4 m ρ c)

theorem f2_arg5 : W2 m ρ c (Proc.devRef .tc main_arg5) = X5 m c :=
  (W2_of_ne m ρ c main_arg5 (by decide)).trans (f1_arg5 m ρ c)

theorem f2_arg6 : W2 m ρ c (Proc.devRef .tc main_arg6) = X6 m c :=
  (W2_of_ne m ρ c main_arg6 (by decide)).trans (f1_arg6 m ρ c)

theorem f2_arg7 : W2 m ρ c (Proc.devRef .tc main_arg7) = X7 m c :=
  (W2_of_ne m ρ c main_arg7 (by decide)).trans (f1_arg7 m ρ c)

theorem f2_arg8 : W2 m ρ c (Proc.devRef .tc main_arg8) = X8 m c :=
  (W2_of_ne m ρ c main_arg8 (by decide)).trans (f1_arg8 m ρ c)

end Cert.KernelIdeal.Fold

end
-- ==== Proof.Fold2.lean ====
/-
  The kernel program's buffer contents at its segment boundaries 3 and 4, as the reference's stages.

  A stretch of host operations writes each of its results as its operation of earlier buffers and leaves every other
  buffer alone; a launch rewrites its output array to the layer's output on the arrays it finds and leaves every other
  buffer alone. The kernel program's host operations between launches are the reference's own (the neighbour
  aggregation, the degree reciprocal, the slices and transposes of the weights), so buffer by buffer the contents are
  the reference's stages of the launch arguments.
-/
import proofs.«181464_j3624952398755_1_alg».proof.Proof.Fold1
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.ShloMosaic.StableHlo Cert.Spec
open Idealize.SL Idealize.SL.Sem

variable (m : (ℓ : Loc nD τ sig) → Buf (Elt Ideal) ℓ) (ρ : Dev nD → PrngReg) (c : Dev nD)

/-! ## Boundary 3 -/

theorem f3_v45 : W3 m ρ c (Proc.devRef .tc main_v45) = Cert.ReferenceIdeal.Read.val_main_v56 (F := Ideal) (X0 m c) (X1 m c) (X2 m c) (X3 m c) (X4 m c) := by
  show StableHlo.after hostOps1 (W2 m ρ c) (Proc.devRef .tc main_v45) = _
  simp only [hostOps1]
  after_results_simp
  try simp only [f2_v33 m ρ c, f2_v1 m ρ c, f2_v3 m ρ c, f2_v12 m ρ c, f2_arg2 m ρ c, f2_arg3 m ρ c, f2_arg4 m ρ c, f2_arg5 m ρ c, f2_arg6 m ρ c, f2_arg7 m ρ c, f2_arg8 m ρ c]
  all_goals rfl

theorem f3_v48 : W3 m ρ c (Proc.devRef .tc main_v48) = Cert.ReferenceIdeal.Read.val_main_v59 (F := Ideal) (X2 m c) := by
  show StableHlo.after hostOps1 (W2 m ρ c) (Proc.devRef .tc main_v48) = _
  simp only [hostOps1]
  after_results_simp
  try simp only [f2_v33 m ρ c, f2_v1 m ρ c, f2_v3 m ρ c, f2_v12 m ρ c, f2_arg2 m ρ c, f2_arg3 m ρ c, f2_arg4 m ρ c, f2_arg5 m ρ c, f2_arg6 m ρ c, f2_arg7 m ρ c, f2_arg8 m ρ c]
  all_goals rfl

theorem f3_v53 : W3 m ρ c (Proc.devRef .tc main_v53) = Cert.ReferenceIdeal.Read.val_main_v62 (F := Ideal) (X3 m c) := by
  show StableHlo.after hostOps1 (W2 m ρ c) (Proc.devRef .tc main_v53) = _
  simp only [hostOps1]
  after_results_simp
  try simp only [f2_v33 m ρ c, f2_v1 m ρ c, f2_v3 m ρ c, f2_v12 m ρ c, f2_arg2 m ρ c, f2_arg3 m ρ c, f2_arg4 m ρ c, f2_arg5 m ρ c, f2_arg6 m ρ c, f2_arg7 m ρ c, f2_arg8 m ρ c]
  all_goals rfl

theorem f3_v51 : W3 m ρ c (Proc.devRef .tc main_v51) = Cert.ReferenceIdeal.Read.val_main_v68 (F := Ideal) (X4 m c) := by
  show StableHlo.after hostOps1 (W2 m ρ c) (Proc.devRef .tc main_v51) = _
  simp only [hostOps1]
  after_results_simp
  try simp only [f2_v33 m ρ c, f2_v1 m ρ c, f2_v3 m ρ c, f2_v12 m ρ c, f2_arg2 m ρ c, f2_arg3 m ρ c, f2_arg4 m ρ c, f2_arg5 m ρ c, f2_arg6 m ρ c, f2_arg7 m ρ c, f2_arg8 m ρ c]
  all_goals rfl

theorem f3_v33 : W3 m ρ c (Proc.devRef .tc main_v33) = Cert.ReferenceIdeal.Read.val_main_v44 (F := Ideal) (X0 m c) (X1 m c) (X2 m c) (X3 m c) (X4 m c) := by
  show StableHlo.after hostOps1 (W2 m ρ c) (Proc.devRef .tc main_v33) = _
  simp only [hostOps1]
  after_results_simp
  try simp only [f2_v33 m ρ c, f2_v1 m ρ c, f2_v3 m ρ c, f2_v12 m ρ c, f2_arg2 m ρ c, f2_arg3 m ρ c, f2_arg4 m ρ c, f2_arg5 m ρ c, f2_arg6 m ρ c, f2_arg7 m ρ c, f2_arg8 m ρ c]
  all_goals rfl

theorem f3_v1 : W3 m ρ c (Proc.devRef .tc main_v1) = Cert.ReferenceIdeal.Read.val_main_v1 (F := Ideal) (X1 m c) := by
  show StableHlo.after hostOps1 (W2 m ρ c) (Proc.devRef .tc main_v1) = _
  simp only [hostOps1]
  after_results_simp
  try simp only [f2_v33 m ρ c, f2_v1 m ρ c, f2_v3 m ρ c, f2_v12 m ρ c, f2_arg2 m ρ c, f2_arg3 m ρ c, f2_arg4 m ρ c, f2_arg5 m ρ c, f2_arg6 m ρ c, f2_arg7 m ρ c, f2_arg8 m ρ c]
  all_goals rfl

theorem f3_v3 : W3 m ρ c (Proc.devRef .tc main_v3) = Cert.ReferenceIdeal.Read.val_main_v3 (F := Ideal) (X1 m c) := by
  show StableHlo.after hostOps1 (W2 m ρ c) (Proc.devRef .tc main_v3) = _
  simp only [hostOps1]
  after_results_simp
  try simp only [f2_v33 m ρ c, f2_v1 m ρ c, f2_v3 m ρ c, f2_v12 m ρ c, f2_arg2 m ρ c, f2_arg3 m ρ c, f2_arg4 m ρ c, f2_arg5 m ρ c, f2_arg6 m ρ c, f2_arg7 m ρ c, f2_arg8 m ρ c]
  all_goals rfl

theorem f3_v12 : W3 m ρ c (Proc.devRef .tc main_v12) = Cert.ReferenceIdeal.Read.val_main_v12 (F := Ideal) (X1 m c) := by
  show StableHlo.after hostOps1 (W2 m ρ c) (Proc.devRef .tc main_v12) = _
  simp only [hostOps1]
  after_results_simp
  try simp only [f2_v33 m ρ c, f2_v1 m ρ c, f2_v3 m ρ c, f2_v12 m ρ c, f2_arg2 m ρ c, f2_arg3 m ρ c, f2_arg4 m ρ c, f2_arg5 m ρ c, f2_arg6 m ρ c, f2_arg7 m ρ c, f2_arg8 m ρ c]
  all_goals rfl

theorem f3_arg2 : W3 m ρ c (Proc.devRef .tc main_arg2) = X2 m c := by
  show StableHlo.after hostOps1 (W2 m ρ c) (Proc.devRef .tc main_arg2) = _
  simp only [hostOps1]
  after_results_simp
  try simp only [f2_v33 m ρ c, f2_v1 m ρ c, f2_v3 m ρ c, f2_v12 m ρ c, f2_arg2 m ρ c, f2_arg3 m ρ c, f2_arg4 m ρ c, f2_arg5 m ρ c, f2_arg6 m ρ c, f2_arg7 m ρ c, f2_arg8 m ρ c]
  all_goals rfl

theorem f3_arg3 : W3 m ρ c (Proc.devRef .tc main_arg3) = X3 m c := by
  show StableHlo.after hostOps1 (W2 m ρ c) (Proc.devRef .tc main_arg3) = _
  simp only [hostOps1]
  after_results_simp
  try simp only [f2_v33 m ρ c, f2_v1 m ρ c, f2_v3 m ρ c, f2_v12 m ρ c, f2_arg2 m ρ c, f2_arg3 m ρ c, f2_arg4 m ρ c, f2_arg5 m ρ c, f2_arg6 m ρ c, f2_arg7 m ρ c, f2_arg8 m ρ c]
  all_goals rfl

theorem f3_arg4 : W3 m ρ c (Proc.devRef .tc main_arg4) = X4 m c := by
  show StableHlo.after hostOps1 (W2 m ρ c) (Proc.devRef .tc main_arg4) = _
  simp only [hostOps1]
  after_results_simp
  try simp only [f2_v33 m ρ c, f2_v1 m ρ c, f2_v3 m ρ c, f2_v12 m ρ c, f2_arg2 m ρ c, f2_arg3 m ρ c, f2_arg4 m ρ c, f2_arg5 m ρ c, f2_arg6 m ρ c, f2_arg7 m ρ c, f2_arg8 m ρ c]
  all_goals rfl

theorem f3_arg5 : W3 m ρ c (Proc.devRef .tc main_arg5) = X5 m c := by
  show StableHlo.after hostOps1 (W2 m ρ c) (Proc.devRef .tc main_arg5) = _
  simp only [hostOps1]
  after_results_simp
  try simp only [f2_v33 m ρ c, f2_v1 m ρ c, f2_v3 m ρ c, f2_v12 m ρ c, f2_arg2 m ρ c, f2_arg3 m ρ c, f2_arg4 m ρ c, f2_arg5 m ρ c, f2_arg6 m ρ c, f2_arg7 m ρ c, f2_arg8 m ρ c]
  all_goals rfl

theorem f3_arg6 : W3 m ρ c (Proc.devRef .tc main_arg6) = X6 m c := by
  show StableHlo.after hostOps1 (W2 m ρ c) (Proc.devRef .tc main_arg6) = _
  simp only [hostOps1]
  after_results_simp
  try simp only [f2_v33 m ρ c, f2_v1 m ρ c, f2_v3 m ρ c, f2_v12 m ρ c, f2_arg2 m ρ c, f2_arg3 m ρ c, f2_arg4 m ρ c, f2_arg5 m ρ c, f2_arg6 m ρ c, f2_arg7 m ρ c, f2_arg8 m ρ c]
  all_goals rfl

theorem f3_arg7 : W3 m ρ c (Proc.devRef .tc main_arg7) = X7 m c := by
  show StableHlo.after hostOps1 (W2 m ρ c) (Proc.devRef .tc main_arg7) = _
  simp only [hostOps1]
  after_results_simp
  try simp only [f2_v33 m ρ c, f2_v1 m ρ c, f2_v3 m ρ c, f2_v12 m ρ c, f2_arg2 m ρ c, f2_arg3 m ρ c, f2_arg4 m ρ c, f2_arg5 m ρ c, f2_arg6 m ρ c, f2_arg7 m ρ c, f2_arg8 m ρ c]
  all_goals rfl

theorem f3_arg8 : W3 m ρ c (Proc.devRef .tc main_arg8) = X8 m c := by
  show StableHlo.after hostOps1 (W2 m ρ c) (Proc.devRef .tc main_arg8) = _
  simp only [hostOps1]
  after_results_simp
  try simp only [f2_v33 m ρ c, f2_v1 m ρ c, f2_v3 m ρ c, f2_v12 m ρ c, f2_arg2 m ρ c, f2_arg3 m ρ c, f2_arg4 m ρ c, f2_arg5 m ρ c, f2_arg6 m ρ c, f2_arg7 m ρ c, f2_arg8 m ρ c]
  all_goals rfl

/-! ## Boundary 4 -/

theorem f4_v54 : W4 m ρ c (Proc.devRef .tc main_v54) = Cert.ReferenceIdeal.Read.val_main_v76 (F := Ideal) (X0 m c) (X1 m c) (X2 m c) (X3 m c) (X4 m c) := by
  refine (W4_arr m ρ c 5).trans ((Cert.KernelIdeal.Regions.region1 (V3 m ρ) c).trans ?_)
  show sageArr (n := 100000) (W3 m ρ c (Proc.devRef .tc main_v45)) (W3 m ρ c (Proc.devRef .tc main_v33)) (W3 m ρ c (Proc.devRef .tc main_v48)) (W3 m ρ c (Proc.devRef .tc main_v51)) (W3 m ρ c (Proc.devRef .tc main_v53)) = _
  rw [f3_v45 m ρ c, f3_v33 m ρ c, f3_v48 m ρ c, f3_v53 m ρ c, f3_v51 m ρ c]
  exact (Cert.ReferenceIdeal.Stages.stage2 _ _ _ _ _).symm

theorem f4_v1 : W4 m ρ c (Proc.devRef .tc main_v1) = Cert.ReferenceIdeal.Read.val_main_v1 (F := Ideal) (X1 m c) :=
  (W4_of_ne m ρ c main_v1 (by decide)).trans (f3_v1 m ρ c)

theorem f4_v3 : W4 m ρ c (Proc.devRef .tc main_v3) = Cert.ReferenceIdeal.Read.val_main_v3 (F := Ideal) (X1 m c) :=
  (W4_of_ne m ρ c main_v3 (by decide)).trans (f3_v3 m ρ c)

theorem f4_v12 : W4 m ρ c (Proc.devRef .tc main_v12) = Cert.ReferenceIdeal.Read.val_main_v12 (F := Ideal) (X1 m c) :=
  (W4_of_ne m ρ c main_v12 (by decide)).trans (f3_v12 m ρ c)

theorem f4_arg2 : W4 m ρ c (Proc.devRef .tc main_arg2) = X2 m c :=
  (W4_of_ne m ρ c main_arg2 (by decide)).trans (f3_arg2 m ρ c)

theorem f4_arg3 : W4 m ρ c (Proc.devRef .tc main_arg3) = X3 m c :=
  (W4_of_ne m ρ c main_arg3 (by decide)).trans (f3_arg3 m ρ c)

theorem f4_arg4 : W4 m ρ c (Proc.devRef .tc main_arg4) = X4 m c :=
  (W4_of_ne m ρ c main_arg4 (by decide)).trans (f3_arg4 m ρ c)

theorem f4_arg5 : W4 m ρ c (Proc.devRef .tc main_arg5) = X5 m c :=
  (W4_of_ne m ρ c main_arg5 (by decide)).trans (f3_arg5 m ρ c)

theorem f4_arg6 : W4 m ρ c (Proc.devRef .tc main_arg6) = X6 m c :=
  (W4_of_ne m ρ c main_arg6 (by decide)).trans (f3_arg6 m ρ c)

theorem f4_arg7 : W4 m ρ c (Proc.devRef .tc main_arg7) = X7 m c :=
  (W4_of_ne m ρ c main_arg7 (by decide)).trans (f3_arg7 m ρ c)

theorem f4_arg8 : W4 m ρ c (Proc.devRef .tc main_arg8) = X8 m c :=
  (W4_of_ne m ρ c main_arg8 (by decide)).trans (f3_arg8 m ρ c)

end Cert.KernelIdeal.Fold

end
-- ==== Proof.Fold3.lean ====
/-
  The kernel program's buffer contents at its segment boundaries 5 and 6, as the reference's stages.

  A stretch of host operations writes each of its results as its operation of earlier buffers and leaves every other
  buffer alone; a launch rewrites its output array to the layer's output on the arrays it finds and leaves every other
  buffer alone. The kernel program's host operations between launches are the reference's own (the neighbour
  aggregation, the degree reciprocal, the slices and transposes of the weights), so buffer by buffer the contents are
  the reference's stages of the launch arguments.
-/
import proofs.«181464_j3624952398755_1_alg».proof.Proof.Fold2
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.ShloMosaic.StableHlo Cert.Spec
open Idealize.SL Idealize.SL.Sem

variable (m : (ℓ : Loc nD τ sig) → Buf (Elt Ideal) ℓ) (ρ : Dev nD → PrngReg) (c : Dev nD)

/-! ## Boundary 5 -/

theorem f5_v66 : W5 m ρ c (Proc.devRef .tc main_v66) = Cert.ReferenceIdeal.Read.val_main_v88 (F := Ideal) (X0 m c) (X1 m c) (X2 m c) (X3 m c) (X4 m c) := by
  show StableHlo.after hostOps2 (W4 m ρ c) (Proc.devRef .tc main_v66) = _
  simp only [hostOps2]
  after_results_simp
  try simp only [f4_v54 m ρ c, f4_v1 m ρ c, f4_v3 m ρ c, f4_v12 m ρ c, f4_arg2 m ρ c, f4_arg3 m ρ c, f4_arg4 m ρ c, f4_arg5 m ρ c, f4_arg6 m ρ c, f4_arg7 m ρ c, f4_arg8 m ρ c]
  all_goals rfl

theorem f5_v69 : W5 m ρ c (Proc.devRef .tc main_v69) = Cert.ReferenceIdeal.Read.val_main_v91 (F := Ideal) (X2 m c) := by
  show StableHlo.after hostOps2 (W4 m ρ c) (Proc.devRef .tc main_v69) = _
  simp only [hostOps2]
  after_results_simp
  try simp only [f4_v54 m ρ c, f4_v1 m ρ c, f4_v3 m ρ c, f4_v12 m ρ c, f4_arg2 m ρ c, f4_arg3 m ρ c, f4_arg4 m ρ c, f4_arg5 m ρ c, f4_arg6 m ρ c, f4_arg7 m ρ c, f4_arg8 m ρ c]
  all_goals rfl

theorem f5_v74 : W5 m ρ c (Proc.devRef .tc main_v74) = Cert.ReferenceIdeal.Read.val_main_v94 (F := Ideal) (X3 m c) := by
  show StableHlo.after hostOps2 (W4 m ρ c) (Proc.devRef .tc main_v74) = _
  simp only [hostOps2]
  after_results_simp
  try simp only [f4_v54 m ρ c, f4_v1 m ρ c, f4_v3 m ρ c, f4_v12 m ρ c, f4_arg2 m ρ c, f4_arg3 m ρ c, f4_arg4 m ρ c, f4_arg5 m ρ c, f4_arg6 m ρ c, f4_arg7 m ρ c, f4_arg8 m ρ c]
  all_goals rfl

theorem f5_v72 : W5 m ρ c (Proc.devRef .tc main_v72) = Cert.ReferenceIdeal.Read.val_main_v100 (F := Ideal) (X4 m c) := by
  show StableHlo.after hostOps2 (W4 m ρ c) (Proc.devRef .tc main_v72) = _
  simp only [hostOps2]
  after_results_simp
  try simp only [f4_v54 m ρ c, f4_v1 m ρ c, f4_v3 m ρ c, f4_v12 m ρ c, f4_arg2 m ρ c, f4_arg3 m ρ c, f4_arg4 m ρ c, f4_arg5 m ρ c, f4_arg6 m ρ c, f4_arg7 m ρ c, f4_arg8 m ρ c]
  all_goals rfl

theorem f5_v54 : W5 m ρ c (Proc.devRef .tc main_v54) = Cert.ReferenceIdeal.Read.val_main_v76 (F := Ideal) (X0 m c) (X1 m c) (X2 m c) (X3 m c) (X4 m c) := by
  show StableHlo.after hostOps2 (W4 m ρ c) (Proc.devRef .tc main_v54) = _
  simp only [hostOps2]
  after_results_simp
  try simp only [f4_v54 m ρ c, f4_v1 m ρ c, f4_v3 m ρ c, f4_v12 m ρ c, f4_arg2 m ρ c, f4_arg3 m ρ c, f4_arg4 m ρ c, f4_arg5 m ρ c, f4_arg6 m ρ c, f4_arg7 m ρ c, f4_arg8 m ρ c]
  all_goals rfl

theorem f5_arg5 : W5 m ρ c (Proc.devRef .tc main_arg5) = X5 m c := by
  show StableHlo.after hostOps2 (W4 m ρ c) (Proc.devRef .tc main_arg5) = _
  simp only [hostOps2]
  after_results_simp
  try simp only [f4_v54 m ρ c, f4_v1 m ρ c, f4_v3 m ρ c, f4_v12 m ρ c, f4_arg2 m ρ c, f4_arg3 m ρ c, f4_arg4 m ρ c, f4_arg5 m ρ c, f4_arg6 m ρ c, f4_arg7 m ρ c, f4_arg8 m ρ c]
  all_goals rfl

theorem f5_arg6 : W5 m ρ c (Proc.devRef .tc main_arg6) = X6 m c := by
  show StableHlo.after hostOps2 (W4 m ρ c) (Proc.devRef .tc main_arg6) = _
  simp only [hostOps2]
  after_results_simp
  try simp only [f4_v54 m ρ c, f4_v1 m ρ c, f4_v3 m ρ c, f4_v12 m ρ c, f4_arg2 m ρ c, f4_arg3 m ρ c, f4_arg4 m ρ c, f4_arg5 m ρ c, f4_arg6 m ρ c, f4_arg7 m ρ c, f4_arg8 m ρ c]
  all_goals rfl

theorem f5_arg7 : W5 m ρ c (Proc.devRef .tc main_arg7) = X7 m c := by
  show StableHlo.after hostOps2 (W4 m ρ c) (Proc.devRef .tc main_arg7) = _
  simp only [hostOps2]
  after_results_simp
  try simp only [f4_v54 m ρ c, f4_v1 m ρ c, f4_v3 m ρ c, f4_v12 m ρ c, f4_arg2 m ρ c, f4_arg3 m ρ c, f4_arg4 m ρ c, f4_arg5 m ρ c, f4_arg6 m ρ c, f4_arg7 m ρ c, f4_arg8 m ρ c]
  all_goals rfl

theorem f5_arg8 : W5 m ρ c (Proc.devRef .tc main_arg8) = X8 m c := by
  show StableHlo.after hostOps2 (W4 m ρ c) (Proc.devRef .tc main_arg8) = _
  simp only [hostOps2]
  after_results_simp
  try simp only [f4_v54 m ρ c, f4_v1 m ρ c, f4_v3 m ρ c, f4_v12 m ρ c, f4_arg2 m ρ c, f4_arg3 m ρ c, f4_arg4 m ρ c, f4_arg5 m ρ c, f4_arg6 m ρ c, f4_arg7 m ρ c, f4_arg8 m ρ c]
  all_goals rfl

/-! ## Boundary 6 -/

theorem f6_v75 : W6 m ρ c (Proc.devRef .tc main_v75) = Cert.ReferenceIdeal.Read.val_main_v108 (F := Ideal) (X0 m c) (X1 m c) (X2 m c) (X3 m c) (X4 m c) := by
  refine (W6_arr m ρ c 5).trans ((Cert.KernelIdeal.Regions.region2 (V5 m ρ) c).trans ?_)
  show sageArr (n := 100000) (W5 m ρ c (Proc.devRef .tc main_v66)) (W5 m ρ c (Proc.devRef .tc main_v54)) (W5 m ρ c (Proc.devRef .tc main_v69)) (W5 m ρ c (Proc.devRef .tc main_v72)) (W5 m ρ c (Proc.devRef .tc main_v74)) = _
  rw [f5_v66 m ρ c, f5_v54 m ρ c, f5_v69 m ρ c, f5_v74 m ρ c, f5_v72 m ρ c]
  exact (Cert.ReferenceIdeal.Stages.stage3 _ _ _ _ _).symm

theorem f6_arg5 : W6 m ρ c (Proc.devRef .tc main_arg5) = X5 m c :=
  (W6_of_ne m ρ c main_arg5 (by decide)).trans (f5_arg5 m ρ c)

theorem f6_arg6 : W6 m ρ c (Proc.devRef .tc main_arg6) = X6 m c :=
  (W6_of_ne m ρ c main_arg6 (by decide)).trans (f5_arg6 m ρ c)

theorem f6_arg7 : W6 m ρ c (Proc.devRef .tc main_arg7) = X7 m c :=
  (W6_of_ne m ρ c main_arg7 (by decide)).trans (f5_arg7 m ρ c)

theorem f6_arg8 : W6 m ρ c (Proc.devRef .tc main_arg8) = X8 m c :=
  (W6_of_ne m ρ c main_arg8 (by decide)).trans (f5_arg8 m ρ c)

end Cert.KernelIdeal.Fold

end
-- ==== Proof.Fold4.lean ====
/-
  The kernel program's buffer contents at its segment boundaries 7 and 8, as the reference's stages.

  A stretch of host operations writes each of its results as its operation of earlier buffers and leaves every other
  buffer alone; a launch rewrites its output array to the layer's output on the arrays it finds and leaves every other
  buffer alone. The kernel program's host operations between launches are the reference's own (the neighbour
  aggregation, the degree reciprocal, the slices and transposes of the weights), so buffer by buffer the contents are
  the reference's stages of the launch arguments.
-/
import proofs.«181464_j3624952398755_1_alg».proof.Proof.Fold3
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.ShloMosaic.StableHlo Cert.Spec
open Idealize.SL Idealize.SL.Sem

variable (m : (ℓ : Loc nD τ sig) → Buf (Elt Ideal) ℓ) (ρ : Dev nD → PrngReg) (c : Dev nD)

/-! ## Boundary 7 -/

theorem f7_v76 : W7 m ρ c (Proc.devRef .tc main_v76) = Cert.ReferenceIdeal.Read.val_main_v109 (F := Ideal) (X5 m c) := by
  show StableHlo.after hostOps3 (W6 m ρ c) (Proc.devRef .tc main_v76) = _
  simp only [hostOps3]
  after_results_simp
  try simp only [f6_v75 m ρ c, f6_arg5 m ρ c, f6_arg6 m ρ c, f6_arg7 m ρ c, f6_arg8 m ρ c]
  all_goals rfl

theorem f7_v77 : W7 m ρ c (Proc.devRef .tc main_v77) = Cert.ReferenceIdeal.Read.val_main_v115 (F := Ideal) (X7 m c) := by
  show StableHlo.after hostOps3 (W6 m ρ c) (Proc.devRef .tc main_v77) = _
  simp only [hostOps3]
  after_results_simp
  try simp only [f6_v75 m ρ c, f6_arg5 m ρ c, f6_arg6 m ρ c, f6_arg7 m ρ c, f6_arg8 m ρ c]
  all_goals rfl

theorem f7_v75 : W7 m ρ c (Proc.devRef .tc main_v75) = Cert.ReferenceIdeal.Read.val_main_v108 (F := Ideal) (X0 m c) (X1 m c) (X2 m c) (X3 m c) (X4 m c) := by
  show StableHlo.after hostOps3 (W6 m ρ c) (Proc.devRef .tc main_v75) = _
  simp only [hostOps3]
  after_results_simp
  try simp only [f6_v75 m ρ c, f6_arg5 m ρ c, f6_arg6 m ρ c, f6_arg7 m ρ c, f6_arg8 m ρ c]
  all_goals rfl

theorem f7_arg6 : W7 m ρ c (Proc.devRef .tc main_arg6) = X6 m c := by
  show StableHlo.after hostOps3 (W6 m ρ c) (Proc.devRef .tc main_arg6) = _
  simp only [hostOps3]
  after_results_simp
  try simp only [f6_v75 m ρ c, f6_arg5 m ρ c, f6_arg6 m ρ c, f6_arg7 m ρ c, f6_arg8 m ρ c]
  all_goals rfl

theorem f7_arg8 : W7 m ρ c (Proc.devRef .tc main_arg8) = X8 m c := by
  show StableHlo.after hostOps3 (W6 m ρ c) (Proc.devRef .tc main_arg8) = _
  simp only [hostOps3]
  after_results_simp
  try simp only [f6_v75 m ρ c, f6_arg5 m ρ c, f6_arg6 m ρ c, f6_arg7 m ρ c, f6_arg8 m ρ c]
  all_goals rfl

/-! ## Boundary 8 -/

theorem f8_v78 : W8 m ρ c (Proc.devRef .tc main_v78) = Cert.ReferenceIdeal.Read.val_main_v119 (F := Ideal) (X0 m c) (X1 m c) (X2 m c) (X3 m c) (X4 m c) (X5 m c) (X6 m c) (X7 m c) (X8 m c) := by
  refine (W8_arr m ρ c 5).trans ((Cert.KernelIdeal.Regions.region3 (V7 m ρ) c).trans ?_)
  show mlpArr (n := 100000) (W7 m ρ c (Proc.devRef .tc main_v75)) (W7 m ρ c (Proc.devRef .tc main_v76)) (W7 m ρ c (Proc.devRef .tc main_arg6)) (W7 m ρ c (Proc.devRef .tc main_v77)) (W7 m ρ c (Proc.devRef .tc main_arg8)) = _
  rw [f7_v75 m ρ c, f7_v76 m ρ c, f7_arg6 m ρ c, f7_v77 m ρ c, f7_arg8 m ρ c]
  exact (Cert.ReferenceIdeal.Stages.stage4 _ _ _ _ _ _ _ _ _).symm

end Cert.KernelIdeal.Fold

end
-- ==== Proof.lean ====
/-
  The kernel program and its reference compute the same function of the nine arguments over the extended reals.

  Both are three GraphSAGE layers followed by a two-layer head on 100000 nodes with 128 features. A layer maps the
  node features h to  max ((mean h · Wlᵀ + b + h · Wrᵀ) / max (‖·‖₂, ε), 0)  row by row, where mean h sums the
  features over each node's in-edges and scales by the reciprocal in-degree. The reference spells everything with
  host operations on whole arrays. The kernel program keeps the neighbour aggregation and the weight slicing as the
  same host operations, and computes each layer (and the head) in a launch that walks twenty blocks of 5000 rows.

  * One block of a launch, entry by entry, is the layer's formula on that block's rows (Proof/KernelBlocks.lean):
    narrowing a float is the identity on the extended reals, a matrix product into zero and a lane sum are plain sums.
  * A row of the output depends only on the same row of the inputs, and the twenty blocks tile the rows, so a launch
    leaves the layer's output on the WHOLE arrays it found (Proof/KernelRegions.lean).
  * The reference's host composition of a layer is the same formula (Proof/RefLayers.lean, Proof/RefStages.lean).
  * Folding the kernel program's segments from the launch memory, every buffer that matters holds the reference's
    corresponding stage (Proof/Fold1.lean … Fold4.lean); in particular the result buffer holds the reference's result.
  * The kernel program's run ends with its buffers at that fold (Proof/KernelRun.lean).

  No law used needs the inputs finite: the two sides apply the same operations in the same order to the same sums.
  The idealization rewrote no operation, so that claim is trivially true.
-/
import proofs.«181464_j3624952398755_1_alg».proof.Defs
import proofs.«181464_j3624952398755_1_alg».proof.Proof.Gen.Kernel
import proofs.«181464_j3624952398755_1_alg».proof.Proof.Gen.Kernel.Frame
import proofs.«181464_j3624952398755_1_alg».proof.Proof.Gen.KernelIdeal
import proofs.«181464_j3624952398755_1_alg».proof.Proof.Gen.KernelIdeal.Frame
import proofs.«181464_j3624952398755_1_alg».proof.Proof.Gen.ReferenceIdeal
import proofs.«181464_j3624952398755_1_alg».proof.Proof.Gen.ReferenceIdeal.Run
import proofs.«181464_j3624952398755_1_alg».proof.Proof.Gen.ReferenceIdeal.Read
import proofs.«181464_j3624952398755_1_alg».proof.Proof.Gen.Pre_finite_inputs
import proofs.«181464_j3624952398755_1_alg».proof.Proof.KernelRun
import proofs.«181464_j3624952398755_1_alg».proof.Proof.Fold4
import Idealize.ShloMosaic.Adequacy
import Idealize.ShloMosaic.Init

noncomputable section

namespace Cert.Proof

open Idealize.ShloMosaic Idealize.ShloMosaic.TcCoe Idealize.SL.Sem

/-- The word-level kernel program runs to the end and leaves its arguments alone. -/
theorem frame_k : Cert.frame_Kernel := fun m ρ _ => Cert.Kernel.Gen.frame m ρ

/-- So does the kernel program over the extended reals. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the same result: the kernel program's result
    buffer holds the fold's final contents, which are the reference's last stage of the arguments. -/
theorem algebraic : Cert.algebraic_KernelIdeal_ReferenceIdeal := by
  intro m ρ m' ρ' _ hagree
  refine ⟨fun c => Cert.KernelIdeal.Gen.W8 m ρ c (Proc.devRef .tc Cert.KernelIdeal.main_v78), Cert.KernelIdeal.Run.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v119_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  exact (Cert.KernelIdeal.Fold.f8_v78 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
